-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S2x6400000 : Shape := ⟨2, ![2, 6400000]⟩
abbrev S4x16 : Shape := ⟨2, ![4, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S4x16 : S_.BroadcastsInDim S4x16 (![] : Fin 0 → Fin S4x16.rank)
  reducesTo_S4x16_S_d0_1 : S4x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x4 .f32) (main_arg1 : IVec S2x6400000 32) (main_arg2 : FVec F S4x16 .f32) (main_arg3 : FVec F S16 .f32) (main_arg4 : FVec F S16x2 .f32) (main_arg5 : FVec F S2 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S4x16 .f32 := Host.absf main_arg2
  let main_cst_0 : FVec F S_ .f32 := constant S_ .f32 0x7F800000#32
  let main_v5 : FVec F S4x16 .f32 := broadcastInDim S4x16 ![] bcast_S_S4x16 main_cst_0
  let main_v6 : IVec S4x16 1 := cmpf .olt main_v4 main_v5
  let main_c_1 : IVec S_ 1 := constantI S_ 1 1#1
  let main_v7 : IVec S_ 1 := (fun x v => Host.reduce IntOp.andi x v reducesTo_S4x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2 .f32 := Host.absf main_arg4
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg5 main_v13 main_v16
-- ==== Kernel.lean ====
abbrev S100000x4 : Shape := ⟨2, ![100000, 4]⟩
abbrev S2x6400000 : Shape := ⟨2, ![2, 6400000]⟩
abbrev S4x16 : Shape := ⟨2, ![4, 16]⟩
abbrev S16 : Shape := ⟨1, ![16]⟩
abbrev S16x2 : Shape := ⟨2, ![16, 2]⟩
abbrev S2 : Shape := ⟨1, ![2]⟩
abbrev S100000 : Shape := ⟨1, ![100000]⟩
abbrev S1x6400000 : Shape := ⟨2, ![1, 6400000]⟩
abbrev S6400000 : Shape := ⟨1, ![6400000]⟩
abbrev S6500000 : Shape := ⟨1, ![6500000]⟩
abbrev S_ : Shape := ⟨0, ![]⟩
abbrev S6500000x1 : Shape := ⟨2, ![6500000, 1]⟩
abbrev S100000x16 : Shape := ⟨2, ![100000, 16]⟩
abbrev S10000x4 : Shape := ⟨2, ![10000, 4]⟩
abbrev S10000x16 : Shape := ⟨2, ![10000, 16]⟩
abbrev S6500000x16 : Shape := ⟨2, ![6500000, 16]⟩
abbrev S13000x16 : Shape := ⟨2, ![13000, 16]⟩
abbrev S13000x1 : Shape := ⟨2, ![13000, 1]⟩
abbrev S1x16 : Shape := ⟨2, ![1, 16]⟩
abbrev S100000x2 : Shape := ⟨2, ![100000, 2]⟩
abbrev S10000x2 : Shape := ⟨2, ![10000, 2]⟩
abbrev S6500000x2 : Shape := ⟨2, ![6500000, 2]⟩
abbrev S13000x2 : Shape := ⟨2, ![13000, 2]⟩
abbrev S1x2 : Shape := ⟨2, ![1, 2]⟩

abbrev nBuf : Space → Nat
  | .hbm => 101
  | .vmem => 32
  | .smem => 0
  | _ => 0

abbrev bufTy : (tb : Table) → Fin (tcTables nBuf tb) → BufTy
  | .hbm, ⟨0, _⟩ => ⟨S100000x4, .f32⟩
  | .hbm, ⟨1, _⟩ => ⟨S2x6400000, .i32⟩
  | .hbm, ⟨2, _⟩ => ⟨S4x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S100000, .i32⟩
  | .hbm, ⟨7, _⟩ => ⟨S1x6400000, .i32⟩
  | .hbm, ⟨8, _⟩ => ⟨S6400000, .i32⟩
  | .hbm, ⟨9, _⟩ => ⟨S6500000, .i32⟩
  | .hbm, ⟨10, _⟩ => ⟨S1x6400000, .i32⟩
  | .hbm, ⟨11, _⟩ => ⟨S6400000, .i32⟩
  | .hbm, ⟨12, _⟩ => ⟨S6500000, .i32⟩
  | .hbm, ⟨13, _⟩ => ⟨S_, .f32⟩
  | .hbm, ⟨14, _⟩ => ⟨S6500000, .f32⟩
  | .hbm, ⟨15, _⟩ => ⟨S_, .f32⟩
  | .hbm, ⟨16, _⟩ => ⟨S100000, .f32⟩
  | .hbm, ⟨17, _⟩ => ⟨S6500000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x16, .f32⟩
  | .hbm, ⟨28, _⟩ => ⟨S_, .i32⟩
  | .hbm, ⟨29, _⟩ => ⟨S6500000, .i32⟩
  | .hbm, ⟨30, _⟩ => ⟨S6500000, .i1⟩
  | .hbm, ⟨31, _⟩ => ⟨S_, .i32⟩
  | .hbm, ⟨32, _⟩ => ⟨S6500000, .i32⟩
  | .hbm, ⟨33, _⟩ => ⟨S6500000, .i32⟩
  | .hbm, ⟨34, _⟩ => ⟨S6500000, .i32⟩
  | .hbm, ⟨35, _⟩ => ⟨S6500000x1, .i32⟩
  | .hbm, ⟨36, _⟩ => ⟨S6500000, .f32⟩
  | .hbm, ⟨37, _⟩ => ⟨S_, .i32⟩
  | .hbm, ⟨38, _⟩ => ⟨S6500000, .i32⟩
  | .hbm, ⟨39, _⟩ => ⟨S6500000, .i1⟩
  | .hbm, ⟨40, _⟩ => ⟨S_, .i32⟩
  | .hbm, ⟨41, _⟩ => ⟨S6500000, .i32⟩
  | .hbm, ⟨42, _⟩ => ⟨S6500000, .i32⟩
  | .hbm, ⟨43, _⟩ => ⟨S6500000, .i32⟩
  | .hbm, ⟨44, _⟩ => ⟨S6500000x1, .i32⟩
  | .hbm, ⟨45, _⟩ => ⟨S6500000, .f32⟩
  | .hbm, ⟨46, _⟩ => ⟨S6500000, .f32⟩
  | .hbm, ⟨47, _⟩ => ⟨S_, .i32⟩
  | .hbm, ⟨48, _⟩ => ⟨S6500000, .i32⟩
  | .hbm, ⟨49, _⟩ => ⟨S6500000, .i1⟩
  | .hbm, ⟨50, _⟩ => ⟨S_, .i32⟩
  | .hbm, ⟨51, _⟩ => ⟨S6500000, .i32⟩
  | .hbm, ⟨52, _⟩ => ⟨S6500000, .i32⟩
  | .hbm, ⟨53, _⟩ => ⟨S6500000, .i32⟩
  | .hbm, ⟨54, _⟩ => ⟨S6500000x1, .i32⟩
  | .hbm, ⟨55, _⟩ => ⟨S6500000x16, .f32⟩
  | .hbm, ⟨56, _⟩ => ⟨S6500000x1, .f32⟩
  | .hbm, ⟨57, _⟩ => ⟨S6500000x16, .f32⟩
  | .hbm, ⟨58, _⟩ => ⟨S_, .f32⟩
  | .hbm, ⟨59, _⟩ => ⟨S100000x16, .f32⟩
  | .hbm, ⟨60, _⟩ => ⟨S6500000x1, .i32⟩
  | .hbm, ⟨61, _⟩ => ⟨S100000x16, .f32⟩
  | .hbm, ⟨62, _⟩ => ⟨S1x16, .f32⟩
  | .hbm, ⟨63, _⟩ => ⟨S100000x16, .f32⟩
  | .hbm, ⟨64, _⟩ => ⟨S100000x2, .f32⟩
  | .hbm, ⟨65, _⟩ => ⟨S_, .i32⟩
  | .hbm, ⟨66, _⟩ => ⟨S6500000, .i32⟩
  | .hbm, ⟨67, _⟩ => ⟨S6500000, .i1⟩
  | .hbm, ⟨68, _⟩ => ⟨S_, .i32⟩
  | .hbm, ⟨69, _⟩ => ⟨S6500000, .i32⟩
  | .hbm, ⟨70, _⟩ => ⟨S6500000, .i32⟩
  | .hbm, ⟨71, _⟩ => ⟨S6500000, .i32⟩
  | .hbm, ⟨72, _⟩ => ⟨S6500000x1, .i32⟩
  | .hbm, ⟨73, _⟩ => ⟨S6500000, .f32⟩
  | .hbm, ⟨74, _⟩ => ⟨S_, .i32⟩
  | .hbm, ⟨75, _⟩ => ⟨S6500000, .i32⟩
  | .hbm, ⟨76, _⟩ => ⟨S6500000, .i1⟩
  | .hbm, ⟨77, _⟩ => ⟨S_, .i32⟩
  | .hbm, ⟨78, _⟩ => ⟨S6500000, .i32⟩
  | .hbm, ⟨79, _⟩ => ⟨S6500000, .i32⟩
  | .hbm, ⟨80, _⟩ => ⟨S6500000, .i32⟩
  | .hbm, ⟨81, _⟩ => ⟨S6500000x1, .i32⟩
  | .hbm, ⟨82, _⟩ => ⟨S6500000, .f32⟩
  | .hbm, ⟨83, _⟩ => ⟨S6500000, .f32⟩
  | .hbm, ⟨84, _⟩ => ⟨S_, .i32⟩
  | .hbm, ⟨85, _⟩ => ⟨S6500000, .i32⟩
  | .hbm, ⟨86, _⟩ => ⟨S6500000, .i1⟩
  | .hbm, ⟨87, _⟩ => ⟨S_, .i32⟩
  | .hbm, ⟨88, _⟩ => ⟨S6500000, .i32⟩
  | .hbm, ⟨89, _⟩ => ⟨S6500000, .i32⟩
  | .hbm, ⟨90, _⟩ => ⟨S6500000, .i32⟩
  | .hbm, ⟨91, _⟩ => ⟨S6500000x1, .i32⟩
  | .hbm, ⟨92, _⟩ => ⟨S6500000x2, .f32⟩
  | .hbm, ⟨93, _⟩ => ⟨S6500000x1, .f32⟩
  | .hbm, ⟨94, _⟩ => ⟨S6500000x2, .f32⟩
  | .hbm, ⟨95, _⟩ => ⟨S_, .f32⟩
  | .hbm, ⟨96, _⟩ => ⟨S100000x2, .f32⟩
  | .hbm, ⟨97, _⟩ => ⟨S6500000x1, .i32⟩
  | .hbm, ⟨98, _⟩ => ⟨S100000x2, .f32⟩
  | .hbm, ⟨99, _⟩ => ⟨S1x2, .f32⟩
  | .hbm, ⟨100, _⟩ => ⟨S100000x2, .f32⟩
  | .local _ .vmem, ⟨0, _⟩ => ⟨S10000x4, .f32⟩
  | .local _ .vmem, ⟨1, _⟩ => ⟨S10000x4, .f32⟩
  | .local _ .vmem, ⟨2, _⟩ => ⟨S4x16, .f32⟩
  | .local _ .vmem, ⟨3, _⟩ => ⟨S10000x16, .f32⟩
  | .local _ .vmem, ⟨4, _⟩ => ⟨S10000x16, .f32⟩
  | .local _ .vmem, ⟨5, _⟩ => ⟨S13000x16, .f32⟩
  | .local _ .vmem, ⟨6, _⟩ => ⟨S13000x16, .f32⟩
  | .local _ .vmem, ⟨7, _⟩ => ⟨S13000x1, .f32⟩
  | .local _ .vmem, ⟨8, _⟩ => ⟨S13000x1, .f32⟩
  | .local _ .vmem, ⟨9, _⟩ => ⟨S13000x16, .f32⟩
  | .local _ .vmem, ⟨10, _⟩ => ⟨S13000x16, .f32⟩
  | .local _ .vmem, ⟨11, _⟩ => ⟨S10000x16, .f32⟩
  | .local _ .vmem, ⟨12, _⟩ => ⟨S10000x16, .f32⟩
  | .local _ .vmem, ⟨13, _⟩ => ⟨S1x16, .f32⟩
  | .local _ .vmem, ⟨14, _⟩ => ⟨S10000x16, .f32⟩
  | .local _ .vmem, ⟨15, _⟩ => ⟨S10000x16, .f32⟩
  | .local _ .vmem, ⟨16, _⟩ => ⟨S10000x16, .f32⟩
  | .local _ .vmem, ⟨17, _⟩ => ⟨S10000x16, .f32⟩
  | .local _ .vmem, ⟨18, _⟩ => ⟨S16x2, .f32⟩
  | .local _ .vmem, ⟨19, _⟩ => ⟨S10000x2, .f32⟩
  | .local _ .vmem, ⟨20, _⟩ => ⟨S10000x2, .f32⟩
  | .local _ .vmem, ⟨21, _⟩ => ⟨S13000x2, .f32⟩
  | .local _ .vmem, ⟨22, _⟩ => ⟨S13000x2, .f32⟩
  | .local _ .vmem, ⟨23, _⟩ => ⟨S13000x1, .f32⟩
  | .local _ .vmem, ⟨24, _⟩ => ⟨S13000x1, .f32⟩
  | .local _ .vmem, ⟨25, _⟩ => ⟨S13000x2, .f32⟩
  | .local _ .vmem, ⟨26, _⟩ => ⟨S13000x2, .f32⟩
  | .local _ .vmem, ⟨27, _⟩ => ⟨S10000x2, .f32⟩
  | .local _ .vmem, ⟨28, _⟩ => ⟨S10000x2, .f32⟩
  | .local _ .vmem, ⟨29, _⟩ => ⟨S1x2, .f32⟩
  | .local _ .vmem, ⟨30, _⟩ => ⟨S10000x2, .f32⟩
  | .local _ .vmem, ⟨31, _⟩ => ⟨S10000x2, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_11 : Ref sig .tc := ⟨.hbm, 74, rfl⟩
abbrev main_v53 : Ref sig .tc := ⟨.hbm, 75, rfl⟩
abbrev main_v54 : Ref sig .tc := ⟨.hbm, 76, rfl⟩
abbrev main_c_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_13 : Ref sig .tc := ⟨.hbm, 84, rfl⟩
abbrev main_v61 : Ref sig .tc := ⟨.hbm, 85, rfl⟩
abbrev main_v62 : Ref sig .tc := ⟨.hbm, 86, rfl⟩
abbrev main_c_14 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_15 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![500], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S13000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S13000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S13000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x2 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![500], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S13000x2 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S13000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S13000x2 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x2 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x2 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x2 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x6400000_S1x6400000_0_0 : S2x6400000.Slices ![0, 0] S1x6400000
  shapeCasts_S1x6400000_S6400000 : S1x6400000.ShapeCasts S6400000
  concatenates_S6400000_S100000_S6500000_d0 : Shape.Concatenates [S6400000, S100000] S6500000 0
  slices_S2x6400000_S1x6400000_1_0 : S2x6400000.Slices ![1, 0] S1x6400000
  bcast_S_S6500000 : S_.BroadcastsInDim S6500000 (![] : Fin 0 → Fin S6500000.rank)
  bcast_S_S100000 : S_.BroadcastsInDim S100000 (![] : Fin 0 → Fin S100000.rank)
  bcast_S6500000_S6500000x1_0 : S6500000.BroadcastsInDim S6500000x1 (![0] : Fin 1 → Fin S6500000x1.rank)
  inb_S10000x4_S10000x4_0_0 : ∀ a, (![0, 0] : Fin 2 → Nat) a + S10000x4.size a ≤ S10000x4.size a
  h_S10000x4 : 0 < S10000x4.numel
  bitsLt_bf16_f32 : FTy.bits .bf16 < FTy.bits .f32
  inb_S4x16_S4x16_0_0 : ∀ a, (![0, 0] : Fin 2 → Nat) a + S4x16.size a ≤ S4x16.size a
  h_S4x16 : 0 < S4x16.numel
  inb_S10000x16_S10000x16_0_0 : ∀ a, (![0, 0] : Fin 2 → Nat) a + S10000x16.size a ≤ S10000x16.size a
  h_S10000x16 : 0 < S10000x16.numel
  shapeCasts_S6500000_S6500000x1 : S6500000.ShapeCasts S6500000x1
  inb_S13000x16_S13000x16_0_0 : ∀ a, (![0, 0] : Fin 2 → Nat) a + S13000x16.size a ≤ S13000x16.size a
  h_S13000x16 : 0 < S13000x16.numel
  shapeCasts_S13000x16_S13000x16 : S13000x16.ShapeCasts S13000x16
  inb_S13000x1_S13000x1_0_0 : ∀ a, (![0, 0] : Fin 2 → Nat) a + S13000x1.size a ≤ S13000x1.size a
  h_S13000x1 : 0 < S13000x1.numel
  shapeCasts_S13000x1_S13000x1 : S13000x1.ShapeCasts S13000x1
  broadcasts_S13000x1_S13000x16 : S13000x1.Broadcasts S13000x16
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x2_S16x2_0_0 : ∀ a, (![0, 0] : Fin 2 → Nat) a + S16x2.size a ≤ S16x2.size a
  h_S16x2 : 0 < S16x2.numel
  inb_S10000x2_S10000x2_0_0 : ∀ a, (![0, 0] : Fin 2 → Nat) a + S10000x2.size a ≤ S10000x2.size a
  h_S10000x2 : 0 < S10000x2.numel
  inb_S13000x2_S13000x2_0_0 : ∀ a, (![0, 0] : Fin 2 → Nat) a + S13000x2.size a ≤ S13000x2.size a
  h_S13000x2 : 0 < S13000x2.numel
  shapeCasts_S13000x2_S13000x2 : S13000x2.ShapeCasts S13000x2
  broadcasts_S13000x1_S13000x2 : S13000x1.Broadcasts S13000x2
  bcast_S_S100000x2 : S_.BroadcastsInDim S100000x2 (![] : Fin 0 → Fin S100000x2.rank)
  shapeCasts_S2_S1x2 : S2.ShapeCasts S1x2
  shapeCasts_S10000x2_S10000x2 : S10000x2.ShapeCasts S10000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  scatter_S100000_S6500000x1_S6500000_n_0_0_1_wf : ScatterDims.WF S100000 S6500000x1 S6500000 [] [0] [0] 1
  dot_S10000x4_S4x16_S10000x16_1_0_0_1_n_n_wf : DotDims.WF S10000x4 S4x16 S10000x16 [1] [0] [0] [1] [] []
  gather_S100000_S6500000x1_S6500000_n_0_n_n_0_1_1_wf : GatherDims.WF S100000 S6500000x1 S6500000 [] [0] [] [0] [] 1 ![1]
  gather_S100000x16_S6500000x1_S6500000x16_1_0_n_n_0_1_116_wf : GatherDims.WF S100000x16 S6500000x1 S6500000x16 [1] [0] [] [0] [] 1 ![1, 16]
  scatter_S100000x16_S6500000x1_S6500000x16_1_0_0_1_wf : ScatterDims.WF S100000x16 S6500000x1 S6500000x16 [1] [0] [0] 1
  dot_S10000x16_S16x2_S10000x2_1_0_0_1_n_n_wf : DotDims.WF S10000x16 S16x2 S10000x2 [1] [0] [0] [1] [] []
  gather_S100000x2_S6500000x1_S6500000x2_1_0_n_n_0_1_12_wf : GatherDims.WF S100000x2 S6500000x1 S6500000x2 [1] [0] [] [0] [] 1 ![1, 2]
  scatter_S100000x2_S6500000x1_S6500000x2_1_0_0_1_wf : ScatterDims.WF S100000x2 S6500000x1 S6500000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x4.size a ≤ S100000x4.size a
  hwx0_0 : ∀ i : grid0.Coords, EltTy.bits .f32 = 32 ∨ (Rect.block (s := S100000x4) S10000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x16.size a ≤ S4x16.size a
  hwx0_1 : ∀ i : grid0.Coords, EltTy.bits .f32 = 32 ∨ (Rect.block (s := S4x16) S4x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S13000x16.size a ≤ S6500000x16.size a
  hwx1_0 : ∀ i : grid1.Coords, EltTy.bits .f32 = 32 ∨ (Rect.block (s := S6500000x16) S13000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S13000x1.size a ≤ S6500000x1.size a
  hwx1_1 : ∀ i : grid1.Coords, EltTy.bits .f32 = 32 ∨ (Rect.block (s := S6500000x1) S13000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S13000x16.size a ≤ S6500000x16.size a
  hwx1_2 : ∀ i : grid1.Coords, EltTy.bits .f32 = 32 ∨ (Rect.block (s := S6500000x16) S13000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x16.size a ≤ S100000x16.size a
  hwx2_2 : ∀ i : grid2.Coords, EltTy.bits .f32 = 32 ∨ (Rect.block (s := S100000x16) S10000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x16.size a ≤ S100000x16.size a
  hwx3_0 : ∀ i : grid3.Coords, EltTy.bits .f32 = 32 ∨ (Rect.block (s := S100000x16) S10000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x2.size a ≤ S16x2.size a
  hwx3_1 : ∀ i : grid3.Coords, EltTy.bits .f32 = 32 ∨ (Rect.block (s := S16x2) S16x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x2.size a ≤ S100000x2.size a
  hwx3_2 : ∀ i : grid3.Coords, EltTy.bits .f32 = 32 ∨ (Rect.block (s := S100000x2) S10000x2.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S13000x2.size a ≤ S6500000x2.size a
  hwx4_0 : ∀ i : grid4.Coords, EltTy.bits .f32 = 32 ∨ (Rect.block (s := S6500000x2) S13000x2.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S13000x1.size a ≤ S6500000x1.size a
  hwx4_1 : ∀ i : grid4.Coords, EltTy.bits .f32 = 32 ∨ (Rect.block (s := S6500000x1) S13000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S13000x2.size a ≤ S6500000x2.size a
  hwx4_2 : ∀ i : grid4.Coords, EltTy.bits .f32 = 32 ∨ (Rect.block (s := S6500000x2) S13000x2.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x2.size a ≤ S100000x2.size a
  hwx5_0 : ∀ i : grid5.Coords, EltTy.bits .f32 = 32 ∨ (Rect.block (s := S100000x2) S10000x2.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x2.size a ≤ S1x2.size a
  hwx5_1 : ∀ i : grid5.Coords, EltTy.bits .f32 = 32 ∨ (Rect.block (s := S1x2) S1x2.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x2.size a ≤ S100000x2.size a
  hwx5_2 : ∀ i : grid5.Coords, EltTy.bits .f32 = 32 ∨ (Rect.block (s := S100000x2) S10000x2.size (cc5_transform_2 i) (hinb5_2 i)).WholeWords (EltTy.packing .f32)

variable [Facts₀]

def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def dot_S10000x4_S4x16_S10000x16_1_0_0_1_n_n : DotDims S10000x4 S4x16 S10000x16 where
  lhsContracting := [1]
  rhsContracting := [0]
  lhsNonContracting := [0]
  rhsNonContracting := [1]
  lhsBatch := []
  rhsBatch := []
  wf := dot_S10000x4_S4x16_S10000x16_1_0_0_1_n_n_wf
def gather_S100000_S6500000x1_S6500000_n_0_n_n_0_1_1 : GatherDims S100000 S6500000x1 S6500000 where
  offsetDims := []
  collapsedSliceDims := [0]
  operandBatchingDims := []
  startIndicesBatchingDims := []
  startIndexMap := [0]
  indexVectorDim := 1
  sliceSizes := ![1]
  wf := gather_S100000_S6500000x1_S6500000_n_0_n_n_0_1_1_wf
def gather_S100000x16_S6500000x1_S6500000x16_1_0_n_n_0_1_116 : GatherDims S100000x16 S6500000x1 S6500000x16 where
  offsetDims := [1]
  collapsedSliceDims := [0]
  operandBatchingDims := []
  startIndicesBatchingDims := []
  startIndexMap := [0]
  indexVectorDim := 1
  sliceSizes := ![1, 16]
  wf := gather_S100000x16_S6500000x1_S6500000x16_1_0_n_n_0_1_116_wf
def scatter_S100000x16_S6500000x1_S6500000x16_1_0_0_1 : ScatterDims S100000x16 S6500000x1 S6500000x16 where
  updateWindowDims := [1]
  insertedWindowDims := [0]
  scatterDimsToOperandDims := [0]
  indexVectorDim := 1
  wf := scatter_S100000x16_S6500000x1_S6500000x16_1_0_0_1_wf
def dot_S10000x16_S16x2_S10000x2_1_0_0_1_n_n : DotDims S10000x16 S16x2 S10000x2 where
  lhsContracting := [1]
  rhsContracting := [0]
  lhsNonContracting := [0]
  rhsNonContracting := [1]
  lhsBatch := []
  rhsBatch := []
  wf := dot_S10000x16_S16x2_S10000x2_1_0_0_1_n_n_wf
def gather_S100000x2_S6500000x1_S6500000x2_1_0_n_n_0_1_12 : GatherDims S100000x2 S6500000x1 S6500000x2 where
  offsetDims := [1]
  collapsedSliceDims := [0]
  operandBatchingDims := []
  startIndicesBatchingDims := []
  startIndexMap := [0]
  indexVectorDim := 1
  sliceSizes := ![1, 2]
  wf := gather_S100000x2_S6500000x1_S6500000x2_1_0_n_n_0_1_12_wf
def scatter_S100000x2_S6500000x1_S6500000x2_1_0_0_1 : ScatterDims S100000x2 S6500000x1 S6500000x2 where
  updateWindowDims := [1]
  insertedWindowDims := [0]
  scatterDimsToOperandDims := [0]
  indexVectorDim := 1
  wf := scatter_S100000x2_S6500000x1_S6500000x2_1_0_0_1_wf

abbrev win0_0 : Pipeline.Window sig grid0 :=
  Pipeline.Window.ofSpec (Memref.whole main_arg0) S10000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v37) S13000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S13000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S13000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S10000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v44) S10000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S16x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45) S10000x2.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v67) S13000x2.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v68) S13000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v69) S13000x2.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v72) S10000x2.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v73) S1x2.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v74) S10000x2.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x4 : Shape := ⟨2, ![100000, 4]⟩
abbrev S2x6400000 : Shape := ⟨2, ![2, 6400000]⟩
abbrev S4x16 : Shape := ⟨2, ![4, 16]⟩
abbrev S16 : Shape := ⟨1, ![16]⟩
abbrev S16x2 : Shape := ⟨2, ![16, 2]⟩
abbrev S2 : Shape := ⟨1, ![2]⟩
abbrev S100000 : Shape := ⟨1, ![100000]⟩
abbrev S1x6400000 : Shape := ⟨2, ![1, 6400000]⟩
abbrev S6400000 : Shape := ⟨1, ![6400000]⟩
abbrev S6500000 : Shape := ⟨1, ![6500000]⟩
abbrev S_ : Shape := ⟨0, ![]⟩
abbrev S6500000x1 : Shape := ⟨2, ![6500000, 1]⟩
abbrev S100000x16 : Shape := ⟨2, ![100000, 16]⟩
abbrev S6500000x16 : Shape := ⟨2, ![6500000, 16]⟩
abbrev S1x16 : Shape := ⟨2, ![1, 16]⟩
abbrev S100000x2 : Shape := ⟨2, ![100000, 2]⟩
abbrev S6500000x2 : Shape := ⟨2, ![6500000, 2]⟩
abbrev S1x2 : Shape := ⟨2, ![1, 2]⟩

abbrev nBuf : Space → Nat
  | .hbm => 108
  | .vmem => 0
  | .smem => 0
  | _ => 0

abbrev bufTy : (tb : Table) → Fin (tcTables nBuf tb) → BufTy
  | .hbm, ⟨0, _⟩ => ⟨S100000x4, .f32⟩
  | .hbm, ⟨1, _⟩ => ⟨S2x6400000, .i32⟩
  | .hbm, ⟨2, _⟩ => ⟨S4x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S100000, .i32⟩
  | .hbm, ⟨7, _⟩ => ⟨S1x6400000, .i32⟩
  | .hbm, ⟨8, _⟩ => ⟨S6400000, .i32⟩
  | .hbm, ⟨9, _⟩ => ⟨S6500000, .i32⟩
  | .hbm, ⟨10, _⟩ => ⟨S1x6400000, .i32⟩
  | .hbm, ⟨11, _⟩ => ⟨S6400000, .i32⟩
  | .hbm, ⟨12, _⟩ => ⟨S6500000, .i32⟩
  | .hbm, ⟨13, _⟩ => ⟨S_, .f32⟩
  | .hbm, ⟨14, _⟩ => ⟨S6500000, .f32⟩
  | .hbm, ⟨15, _⟩ => ⟨S_, .f32⟩
  | .hbm, ⟨16, _⟩ => ⟨S100000, .f32⟩
  | .hbm, ⟨17, _⟩ => ⟨S6500000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x16, .f32⟩
  | .hbm, ⟨28, _⟩ => ⟨S_, .i32⟩
  | .hbm, ⟨29, _⟩ => ⟨S6500000, .i32⟩
  | .hbm, ⟨30, _⟩ => ⟨S6500000, .i1⟩
  | .hbm, ⟨31, _⟩ => ⟨S_, .i32⟩
  | .hbm, ⟨32, _⟩ => ⟨S6500000, .i32⟩
  | .hbm, ⟨33, _⟩ => ⟨S6500000, .i32⟩
  | .hbm, ⟨34, _⟩ => ⟨S6500000, .i32⟩
  | .hbm, ⟨35, _⟩ => ⟨S6500000x1, .i32⟩
  | .hbm, ⟨36, _⟩ => ⟨S6500000, .f32⟩
  | .hbm, ⟨37, _⟩ => ⟨S_, .i32⟩
  | .hbm, ⟨38, _⟩ => ⟨S6500000, .i32⟩
  | .hbm, ⟨39, _⟩ => ⟨S6500000, .i1⟩
  | .hbm, ⟨40, _⟩ => ⟨S_, .i32⟩
  | .hbm, ⟨41, _⟩ => ⟨S6500000, .i32⟩
  | .hbm, ⟨42, _⟩ => ⟨S6500000, .i32⟩
  | .hbm, ⟨43, _⟩ => ⟨S6500000, .i32⟩
  | .hbm, ⟨44, _⟩ => ⟨S6500000x1, .i32⟩
  | .hbm, ⟨45, _⟩ => ⟨S6500000, .f32⟩
  | .hbm, ⟨46, _⟩ => ⟨S6500000, .f32⟩
  | .hbm, ⟨47, _⟩ => ⟨S_, .i32⟩
  | .hbm, ⟨48, _⟩ => ⟨S6500000, .i32⟩
  | .hbm, ⟨49, _⟩ => ⟨S6500000, .i1⟩
  | .hbm, ⟨50, _⟩ => ⟨S_, .i32⟩
  | .hbm, ⟨51, _⟩ => ⟨S6500000, .i32⟩
  | .hbm, ⟨52, _⟩ => ⟨S6500000, .i32⟩
  | .hbm, ⟨53, _⟩ => ⟨S6500000, .i32⟩
  | .hbm, ⟨54, _⟩ => ⟨S6500000x1, .i32⟩
  | .hbm, ⟨55, _⟩ => ⟨S6500000x16, .f32⟩
  | .hbm, ⟨56, _⟩ => ⟨S6500000x1, .f32⟩
  | .hbm, ⟨57, _⟩ => ⟨S6500000x16, .f32⟩
  | .hbm, ⟨58, _⟩ => ⟨S6500000x16, .f32⟩
  | .hbm, ⟨59, _⟩ => ⟨S_, .f32⟩
  | .hbm, ⟨60, _⟩ => ⟨S100000x16, .f32⟩
  | .hbm, ⟨61, _⟩ => ⟨S6500000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x2, .f32⟩
  | .hbm, ⟨70, _⟩ => ⟨S_, .i32⟩
  | .hbm, ⟨71, _⟩ => ⟨S6500000, .i32⟩
  | .hbm, ⟨72, _⟩ => ⟨S6500000, .i1⟩
  | .hbm, ⟨73, _⟩ => ⟨S_, .i32⟩
  | .hbm, ⟨74, _⟩ => ⟨S6500000, .i32⟩
  | .hbm, ⟨75, _⟩ => ⟨S6500000, .i32⟩
  | .hbm, ⟨76, _⟩ => ⟨S6500000, .i32⟩
  | .hbm, ⟨77, _⟩ => ⟨S6500000x1, .i32⟩
  | .hbm, ⟨78, _⟩ => ⟨S6500000, .f32⟩
  | .hbm, ⟨79, _⟩ => ⟨S_, .i32⟩
  | .hbm, ⟨80, _⟩ => ⟨S6500000, .i32⟩
  | .hbm, ⟨81, _⟩ => ⟨S6500000, .i1⟩
  | .hbm, ⟨82, _⟩ => ⟨S_, .i32⟩
  | .hbm, ⟨83, _⟩ => ⟨S6500000, .i32⟩
  | .hbm, ⟨84, _⟩ => ⟨S6500000, .i32⟩
  | .hbm, ⟨85, _⟩ => ⟨S6500000, .i32⟩
  | .hbm, ⟨86, _⟩ => ⟨S6500000x1, .i32⟩
  | .hbm, ⟨87, _⟩ => ⟨S6500000, .f32⟩
  | .hbm, ⟨88, _⟩ => ⟨S6500000, .f32⟩
  | .hbm, ⟨89, _⟩ => ⟨S_, .i32⟩
  | .hbm, ⟨90, _⟩ => ⟨S6500000, .i32⟩
  | .hbm, ⟨91, _⟩ => ⟨S6500000, .i1⟩
  | .hbm, ⟨92, _⟩ => ⟨S_, .i32⟩
  | .hbm, ⟨93, _⟩ => ⟨S6500000, .i32⟩
  | .hbm, ⟨94, _⟩ => ⟨S6500000, .i32⟩
  | .hbm, ⟨95, _⟩ => ⟨S6500000, .i32⟩
  | .hbm, ⟨96, _⟩ => ⟨S6500000x1, .i32⟩
  | .hbm, ⟨97, _⟩ => ⟨S6500000x2, .f32⟩
  | .hbm, ⟨98, _⟩ => ⟨S6500000x1, .f32⟩
  | .hbm, ⟨99, _⟩ => ⟨S6500000x2, .f32⟩
  | .hbm, ⟨100, _⟩ => ⟨S6500000x2, .f32⟩
  | .hbm, ⟨101, _⟩ => ⟨S_, .f32⟩
  | .hbm, ⟨102, _⟩ => ⟨S100000x2, .f32⟩
  | .hbm, ⟨103, _⟩ => ⟨S6500000x1, .i32⟩
  | .hbm, ⟨104, _⟩ => ⟨S100000x2, .f32⟩
  | .hbm, ⟨105, _⟩ => ⟨S1x2, .f32⟩
  | .hbm, ⟨106, _⟩ => ⟨S100000x2, .f32⟩
  | .hbm, ⟨107, _⟩ => ⟨S100000x2, .f32⟩
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  concatenates_S6400000_S100000_S6500000_d0 : Shape.Concatenates [S6400000, S100000] S6500000 0
  slices_S2x6400000_S1x6400000_1_0 : S2x6400000.Slices ![1, 0] S1x6400000
  bcast_S_S6500000 : S_.BroadcastsInDim S6500000 (![] : Fin 0 → Fin S6500000.rank)
  bcast_S_S100000 : S_.BroadcastsInDim S100000 (![] : Fin 0 → Fin S100000.rank)
  bcast_S6500000_S6500000x1_0 : S6500000.BroadcastsInDim S6500000x1 (![0] : Fin 1 → Fin S6500000x1.rank)
  bcast_S6500000x1_S6500000x16_0_1 : S6500000x1.BroadcastsInDim S6500000x16 (![0, 1] : Fin 2 → Fin S6500000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S6500000x1_S6500000x2_0_1 : S6500000x1.BroadcastsInDim S6500000x2 (![0, 1] : Fin 2 → Fin S6500000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S6500000x1_S6500000_n_0_0_1_wf : ScatterDims.WF S100000 S6500000x1 S6500000 [] [0] [0] 1
  dot_S100000x4_S4x16_S100000x16_1_0_0_1_n_n_wf : DotDims.WF S100000x4 S4x16 S100000x16 [1] [0] [0] [1] [] []
  gather_S100000_S6500000x1_S6500000_n_0_n_n_0_1_1_wf : GatherDims.WF S100000 S6500000x1 S6500000 [] [0] [] [0] [] 1 ![1]
  gather_S100000x16_S6500000x1_S6500000x16_1_0_n_n_0_1_116_wf : GatherDims.WF S100000x16 S6500000x1 S6500000x16 [1] [0] [] [0] [] 1 ![1, 16]
  scatter_S100000x16_S6500000x1_S6500000x16_1_0_0_1_wf : ScatterDims.WF S100000x16 S6500000x1 S6500000x16 [1] [0] [0] 1
  dot_S100000x16_S16x2_S100000x2_1_0_0_1_n_n_wf : DotDims.WF S100000x16 S16x2 S100000x2 [1] [0] [0] [1] [] []
  gather_S100000x2_S6500000x1_S6500000x2_1_0_n_n_0_1_12_wf : GatherDims.WF S100000x2 S6500000x1 S6500000x2 [1] [0] [] [0] [] 1 ![1, 2]
  scatter_S100000x2_S6500000x1_S6500000x2_1_0_0_1_wf : ScatterDims.WF S100000x2 S6500000x1 S6500000x2 [1] [0] [0] 1

variable [Facts₀]

def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def dot_S100000x4_S4x16_S100000x16_1_0_0_1_n_n : DotDims S100000x4 S4x16 S100000x16 where
  lhsContracting := [1]
  rhsContracting := [0]
  lhsNonContracting := [0]
  rhsNonContracting := [1]
  lhsBatch := []
  rhsBatch := []
  wf := dot_S100000x4_S4x16_S100000x16_1_0_0_1_n_n_wf
def gather_S100000_S6500000x1_S6500000_n_0_n_n_0_1_1 : GatherDims S100000 S6500000x1 S6500000 where
  offsetDims := []
  collapsedSliceDims := [0]
  operandBatchingDims := []
  startIndicesBatchingDims := []
  startIndexMap := [0]
  indexVectorDim := 1
  sliceSizes := ![1]
  wf := gather_S100000_S6500000x1_S6500000_n_0_n_n_0_1_1_wf
def gather_S100000x16_S6500000x1_S6500000x16_1_0_n_n_0_1_116 : GatherDims S100000x16 S6500000x1 S6500000x16 where
  offsetDims := [1]
  collapsedSliceDims := [0]
  operandBatchingDims := []
  startIndicesBatchingDims := []
  startIndexMap := [0]
  indexVectorDim := 1
  sliceSizes := ![1, 16]
  wf := gather_S100000x16_S6500000x1_S6500000x16_1_0_n_n_0_1_116_wf
def scatter_S100000x16_S6500000x1_S6500000x16_1_0_0_1 : ScatterDims S100000x16 S6500000x1 S6500000x16 where
  updateWindowDims := [1]
  insertedWindowDims := [0]
  scatterDimsToOperandDims := [0]
  indexVectorDim := 1
  wf := scatter_S100000x16_S6500000x1_S6500000x16_1_0_0_1_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf
def gather_S100000x2_S6500000x1_S6500000x2_1_0_n_n_0_1_12 : GatherDims S100000x2 S6500000x1 S6500000x2 where
  offsetDims := [1]
  collapsedSliceDims := [0]
  operandBatchingDims := []
  startIndicesBatchingDims := []
  startIndexMap := [0]
  indexVectorDim := 1
  sliceSizes := ![1, 2]
  wf := gather_S100000x2_S6500000x1_S6500000x2_1_0_n_n_0_1_12_wf
def scatter_S100000x2_S6500000x1_S6500000x2_1_0_0_1 : ScatterDims S100000x2 S6500000x1 S6500000x2 where
  updateWindowDims := [1]
  insertedWindowDims := [0]
  scatterDimsToOperandDims := [0]
  indexVectorDim := 1
  wf := scatter_S100000x2_S6500000x1_S6500000x2_1_0_0_1_wf

class Facts : Prop extends Facts₀ where

variable [Facts]
-- ==== Proof.KernelRun.lean ====
/-
  The idealized kernel's run with its result array named.

  @main is twelve segments: six stretches of host operations and six kernel regions. The generated frame
  carries, through every segment, the contents of every unscoped buffer at that segment's boundary; the
  last boundary's contents are `W12`. Read against the final state, that gives not only the six argument
  arrays as launched but also the result array `main_v74` at `W12`'s contents of its buffer, which is what
  the last region's write-backs leave there.
-/
import proofs.«155850_j43215960932691_2_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result array ends at the last
    boundary's contents of its buffer and the six arguments end as launched. -/
theorem run_named : θ_run defs (onTc (τ := τ) (main (F := F))) ⟨m, fun _ => 0, ρ⟩ (fun r => ∀ c : Dev nD,
      r.2.mem ((c.tc : Thread nD τ).loc main_v74) = W12 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v74 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c)⟩)

/-- The result's buffer is the last region's output window's array: after that region it holds what the
    region's write-backs leave. -/
theorem W12_result (c : Dev nD) :
    W12 m ρ c (Proc.devRef .tc main_v74) = (dat5 (V11 m ρ) c).arrAt 2 cfg5.N :=
  W12_arr m ρ c 2

end Cert.KernelIdeal.RunV

end
-- ==== Proof.HostPieces.lean ====
/-
  The host-side pieces of the graph convolution, as functions of arrays (any float family `F`).

  From the edge list `a1 : i32[2, 6400000]`: the sources `srcOf a1` and the destinations `dstOf a1` are its two rows,
  each followed by the self-loops 0, 1, …, 99999 (6500000 entries). `degOf d` counts, for every node, the edges that
  arrive at it (ones scattered along `d` into zeros); `disOf d` is its inverse square root where the count is positive
  and zero elsewhere. `wrapIdx s` adds 100000 to the negative entries of an index vector (indexing from the end),
  `col s` lays a vector out as a column. `coefOf dis s d` is the per-edge weight dis[s]·dis[d].
  `gatherRows16 h s` / `gatherRows2 h s` pick row s[e] of `h` for every edge e; `scatterRows16 d u` / `scatterRows2 d u`
  add row e of `u` into row d[e] of a zero array.
-/
import proofs.«155850_j43215960932691_2_alg».proof.Proof.Gen.KernelIdeal

noncomputable section

namespace Cert.KernelIdeal.Host

open Cert.KernelIdeal Cert.KernelIdeal.Gen Idealize.ShloMosaic

variable {F : FTy → Type} [FloatOps F]

/-- The edge sources, then the self-loops. -/
def srcOf (a1 : (⟨S2x6400000, .i32⟩ : BufTy).Contents (Elt F)) : (⟨S6500000, .i32⟩ : BufTy).Contents (Elt F) :=
  concatenate S6500000 0 [⟨S6400000, shapeCast S6400000 (extractStridedSlice S1x6400000 ![0, 0] a1 slices_S2x6400000_S1x6400000_0_0) shapeCasts_S1x6400000_S6400000⟩, ⟨S100000, iotaInDim S100000 32 0⟩] concatenates_S6400000_S100000_S6500000_d0

/-- The edge destinations, then the self-loops. -/
def dstOf (a1 : (⟨S2x6400000, .i32⟩ : BufTy).Contents (Elt F)) : (⟨S6500000, .i32⟩ : BufTy).Contents (Elt F) :=
  concatenate S6500000 0 [⟨S6400000, shapeCast S6400000 (extractStridedSlice S1x6400000 ![1, 0] a1 slices_S2x6400000_S1x6400000_1_0) shapeCasts_S1x6400000_S6400000⟩, ⟨S100000, iotaInDim S100000 32 0⟩] concatenates_S6400000_S100000_S6500000_d0

/-- A vector laid out as a column. -/
def col {e : EltTy} (s : (⟨S6500000, e⟩ : BufTy).Contents (Elt F)) : (⟨S6500000x1, e⟩ : BufTy).Contents (Elt F) :=
  broadcastInDim S6500000x1 ![0] bcast_S6500000_S6500000x1_0 s

/-- The in-degree of every node, self-loops included: ones added along the destinations into zeros. -/
def degOf (d : (⟨S6500000, .i32⟩ : BufTy).Contents (Elt F)) : (⟨S100000, .f32⟩ : BufTy).Contents (Elt F) :=
  Host.scatterAdd scatter_S100000_S6500000x1_S6500000_n_0_0_1 (broadcastInDim S100000 ![] bcast_S_S100000 (constant S_ .f32 0x00000000#32))
    (col d) (broadcastInDim S6500000 ![] bcast_S_S6500000 (constant S_ .f32 0x3F800000#32))

/-- The inverse square root of the degree where it is positive, zero elsewhere. -/
def disOf (d : (⟨S6500000, .i32⟩ : BufTy).Contents (Elt F)) : (⟨S100000, .f32⟩ : BufTy).Contents (Elt F) :=
  select (cmpf (F := F) .ogt (degOf d) (broadcastInDim S100000 ![] bcast_S_S100000 (constant S_ .f32 0x00000000#32)))
    (Host.rsqrt (degOf d)) (broadcastInDim S100000 ![] bcast_S_S100000 (id (constant S_ .f32 0x00000000#32)))

/-- Negative indices count from the end: 100000 is added to them. -/
def wrapIdx (s : (⟨S6500000, .i32⟩ : BufTy).Contents (Elt F)) : (⟨S6500000, .i32⟩ : BufTy).Contents (Elt F) :=
  select (cmpi .slt s (broadcastInDim S6500000 ![] bcast_S_S6500000 (constantI S_ 32 0#32)))
    (addi s (broadcastInDim S6500000 ![] bcast_S_S6500000 (constantI S_ 32 100000#32))) s

/-- The weight of every edge: dis[source] · dis[destination]. -/
def coefOf (dis : (⟨S100000, .f32⟩ : BufTy).Contents (Elt F)) (s d : (⟨S6500000, .i32⟩ : BufTy).Contents (Elt F)) : (⟨S6500000, .f32⟩ : BufTy).Contents (Elt F) :=
  mulf (Host.gather gather_S100000_S6500000x1_S6500000_n_0_n_n_0_1_1 dis (col (wrapIdx s)))
    (Host.gather gather_S100000_S6500000x1_S6500000_n_0_n_n_0_1_1 dis (col (wrapIdx d)))

/-- Row s[e] of a 16-column array, for every edge e. -/
def gatherRows16 (h : (⟨S100000x16, .f32⟩ : BufTy).Contents (Elt F)) (s : (⟨S6500000, .i32⟩ : BufTy).Contents (Elt F)) : (⟨S6500000x16, .f32⟩ : BufTy).Contents (Elt F) :=
  Host.gather gather_S100000x16_S6500000x1_S6500000x16_1_0_n_n_0_1_116 h (col (wrapIdx s))

/-- Row s[e] of a 2-column array, for every edge e. -/
def gatherRows2 (h : (⟨S100000x2, .f32⟩ : BufTy).Contents (Elt F)) (s : (⟨S6500000, .i32⟩ : BufTy).Contents (Elt F)) : (⟨S6500000x2, .f32⟩ : BufTy).Contents (Elt F) :=
  Host.gather gather_S100000x2_S6500000x1_S6500000x2_1_0_n_n_0_1_12 h (col (wrapIdx s))

/-- Row e of `u` added into row d[e] of a zero array (16 columns). -/
def scatterRows16 (d : (⟨S6500000, .i32⟩ : BufTy).Contents (Elt F)) (u : (⟨S6500000x16, .f32⟩ : BufTy).Contents (Elt F)) : (⟨S100000x16, .f32⟩ : BufTy).Contents (Elt F) :=
  Host.scatterAdd scatter_S100000x16_S6500000x1_S6500000x16_1_0_0_1 (broadcastInDim S100000x16 ![] bcast_S_S100000x16 (constant S_ .f32 0x00000000#32)) (col d) u

/-- Row e of `u` added into row d[e] of a zero array (2 columns). -/
def scatterRows2 (d : (⟨S6500000, .i32⟩ : BufTy).Contents (Elt F)) (u : (⟨S6500000x2, .f32⟩ : BufTy).Contents (Elt F)) : (⟨S100000x2, .f32⟩ : BufTy).Contents (Elt F) :=
  Host.scatterAdd scatter_S100000x2_S6500000x1_S6500000x2_1_0_0_1 (broadcastInDim S100000x2 ![] bcast_S_S100000x2 (constant S_ .f32 0x00000000#32)) (col d) u

end Cert.KernelIdeal.Host

end
-- ==== Proof.HostMid.lean ====
/-
  The stretches of host operations before each of the two edge-scaling regions, read at the regions' operands.

  Whatever the buffers hold when the stretch starts (`W`): the first operand of the scaling region is the rows of
  the node features picked along the sources, the second is the per-edge weight dis[source]·dis[destination] laid
  out as a column; the sources, the destinations, the inverse-square-root degrees and the arguments are not written.
-/
import proofs.«155850_j43215960932691_2_alg».proof.Proof.Gen.KernelIdeal.Launch
import proofs.«155850_j43215960932691_2_alg».proof.Proof.HostPieces
import Idealize.ShloMosaic.Lib.StableHlo.Run

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F] (W : Valuation τ sig (Elt F))

/-- Closes `after ops W b = W b` for a buffer `b` that no operation of the stretch writes. -/
macro "keep_mid" : tactic => `(tactic|
  exact StableHlo.after_of_forall_not_mem _ _ (List.forall_iff_forall_mem.mp (by
    simp only [hostOps0, hostOps0_1, hostOps1, hostOps2, hostOps4, hostOps5, List.Forall, StableHlo.nullary_writes, StableHlo.unary_writes,
      StableHlo.binary_writes, StableHlo.ternary_writes, StableHlo.quaternary_writes, StableHlo.reshape_writes,
      StableHlo.binaryIndexed_writes, Finset.mem_singleton]
    repeat' apply And.intro
    all_goals exact StableHlo.devRef_ne_of_ne (by decide))))

/-- The per-edge weight as a column. -/
def coefCol (dis : (⟨S100000, .f32⟩ : BufTy).Contents (Elt F)) (s d : (⟨S6500000, .i32⟩ : BufTy).Contents (Elt F)) : (⟨S6500000x1, .f32⟩ : BufTy).Contents (Elt F) :=
  shapeCast S6500000x1 (coefOf dis s d) shapeCasts_S6500000_S6500000x1

/-! ## Before the first scaling region -/

theorem mid1_rows : after hostOps1 W (Proc.devRef .tc main_v37) = gatherRows16 (W (Proc.devRef .tc main_v15)) (W (Proc.devRef .tc main_v3)) := by
  after_results_simp
  rfl

theorem mid1_coef : after hostOps1 W (Proc.devRef .tc main_v38) = coefCol (W (Proc.devRef .tc main_v14)) (W (Proc.devRef .tc main_v3)) (W (Proc.devRef .tc main_v6)) := by
  after_results_simp
  rfl

theorem mid1_keep_v3 : after hostOps1 W (Proc.devRef .tc main_v3) = W (Proc.devRef .tc main_v3) := by keep_mid
theorem mid1_keep_v6 : after hostOps1 W (Proc.devRef .tc main_v6) = W (Proc.devRef .tc main_v6) := by keep_mid
theorem mid1_keep_v14 : after hostOps1 W (Proc.devRef .tc main_v14) = W (Proc.devRef .tc main_v14) := by keep_mid
theorem mid1_keep_arg3 : after hostOps1 W (Proc.devRef .tc main_arg3) = W (Proc.devRef .tc main_arg3) := by keep_mid
theorem mid1_keep_arg4 : after hostOps1 W (Proc.devRef .tc main_arg4) = W (Proc.devRef .tc main_arg4) := by keep_mid
theorem mid1_keep_arg5 : after hostOps1 W (Proc.devRef .tc main_arg5) = W (Proc.devRef .tc main_arg5) := by keep_mid

/-! ## Before the second scaling region -/

theorem mid2_rows : after hostOps4 W (Proc.devRef .tc main_v67) = gatherRows2 (W (Proc.devRef .tc main_v45)) (W (Proc.devRef .tc main_v3)) := by
  after_results_simp
  rfl

theorem mid2_coef : after hostOps4 W (Proc.devRef .tc main_v68) = coefCol (W (Proc.devRef .tc main_v14)) (W (Proc.devRef .tc main_v3)) (W (Proc.devRef .tc main_v6)) := by
  after_results_simp
  rfl

theorem mid2_keep_v6 : after hostOps4 W (Proc.devRef .tc main_v6) = W (Proc.devRef .tc main_v6) := by keep_mid
theorem mid2_keep_arg5 : after hostOps4 W (Proc.devRef .tc main_arg5) = W (Proc.devRef .tc main_arg5) := by keep_mid

end Cert.KernelIdeal.Host

end
-- ==== Proof.HostAgg.lean ====
/-
  The stretches of host operations before each of the two bias regions, read at the regions' operands.

  Whatever the buffers hold when the stretch starts (`W`): the first operand of the bias region is the scaled edge
  rows added up along the destinations, the second is the bias vector laid out as one row; the sources, the
  destinations, the inverse-square-root degrees and the later arguments are not written.
-/
import proofs.«155850_j43215960932691_2_alg».proof.Proof.Gen.KernelIdeal.Launch
import proofs.«155850_j43215960932691_2_alg».proof.Proof.HostPieces
import Idealize.ShloMosaic.Lib.StableHlo.Run

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F] (W : Valuation τ sig (Elt F))

/-- Closes `after ops W b = W b` for a buffer `b` that no operation of the stretch writes. -/
macro "keep_agg" : tactic => `(tactic|
  exact StableHlo.after_of_forall_not_mem _ _ (List.forall_iff_forall_mem.mp (by
    simp only [hostOps0, hostOps0_1, hostOps1, hostOps2, hostOps4, hostOps5, List.Forall, StableHlo.nullary_writes, StableHlo.unary_writes,
      StableHlo.binary_writes, StableHlo.ternary_writes, StableHlo.quaternary_writes, StableHlo.reshape_writes,
      StableHlo.binaryIndexed_writes, Finset.mem_singleton]
    repeat' apply And.intro
    all_goals exact StableHlo.devRef_ne_of_ne (by decide))))

/-- A 16-vector as one row. -/
def biasRow16 (b : (⟨S16, .f32⟩ : BufTy).Contents (Elt F)) : (⟨S1x16, .f32⟩ : BufTy).Contents (Elt F) := shapeCast S1x16 b shapeCasts_S16_S1x16
/-- A 2-vector as one row. -/
def biasRow2 (b : (⟨S2, .f32⟩ : BufTy).Contents (Elt F)) : (⟨S1x2, .f32⟩ : BufTy).Contents (Elt F) := shapeCast S1x2 b shapeCasts_S2_S1x2

/-! ## Before the first bias region -/

theorem agg1_sum : after hostOps2 W (Proc.devRef .tc main_v42) = scatterRows16 (W (Proc.devRef .tc main_v6)) (W (Proc.devRef .tc main_v39)) := by
  after_results
  rfl

theorem agg1_bias : after hostOps2 W (Proc.devRef .tc main_v43) = biasRow16 (W (Proc.devRef .tc main_arg3)) := by
  after_results
  rfl

theorem agg1_keep_v3 : after hostOps2 W (Proc.devRef .tc main_v3) = W (Proc.devRef .tc main_v3) := by keep_agg
theorem agg1_keep_v6 : after hostOps2 W (Proc.devRef .tc main_v6) = W (Proc.devRef .tc main_v6) := by keep_agg
theorem agg1_keep_v14 : after hostOps2 W (Proc.devRef .tc main_v14) = W (Proc.devRef .tc main_v14) := by keep_agg
theorem agg1_keep_arg4 : after hostOps2 W (Proc.devRef .tc main_arg4) = W (Proc.devRef .tc main_arg4) := by keep_agg
theorem agg1_keep_arg5 : after hostOps2 W (Proc.devRef .tc main_arg5) = W (Proc.devRef .tc main_arg5) := by keep_agg

/-! ## Before the second bias region -/

theorem agg2_sum : after hostOps5 W (Proc.devRef .tc main_v72) = scatterRows2 (W (Proc.devRef .tc main_v6)) (W (Proc.devRef .tc main_v69)) := by
  after_results
  rfl

theorem agg2_bias : after hostOps5 W (Proc.devRef .tc main_v73) = biasRow2 (W (Proc.devRef .tc main_arg5)) := by
  after_results
  rfl

end Cert.KernelIdeal.Host

end
-- ==== Proof.LibRowsLayer.lean ====
/-
  The mathematics of a two-layer mean-aggregating graph network, on the extended reals.

  A dense layer on the rows of two arrays: entry (r, c) of `layer a x Wl Wr b` is
      max( Σ_q a(r,q)·Wl(q,c) + Σ_q x(r,q)·Wr(q,c) + b(c), 0 ),
  and a linear head: entry (r, c) of `head h W b` is Σ_q h(r,q)·W(q,c) + b(c).
  Both depend on row r of their row operands only, so a block of consecutive rows of the result
  is the same function of the same block of rows of the operands (`layer_rows`, `head_rows`).
-/
import Idealize.ShloMosaic.PureOps.Ideal
import Idealize.ShloMosaic.Lib.ValueIdx

noncomputable section

namespace Cert.Sage

open Idealize.ShloMosaic Idealize.ShloMosaic.ValueIdx
open scoped BigOperators

/-- A rank-2 array of extended reals. -/
abbrev Arr2 (n k : Nat) : Type := (⟨2, ![n, k]⟩ : Shape).Idx → EReal
/-- A rank-1 array of extended reals. -/
abbrev Arr1 (c : Nat) : Type := (⟨1, ![c]⟩ : Shape).Idx → EReal

variable {n N k c : Nat}

/-- The float zero both programs clip at. -/
def zeroF : EReal := Ideal.ofBits .f32 0x00000000#32

/-- The row coordinate of an index, as a number below the row extent. -/
abbrev rowOf {n c : Nat} (i : (⟨2, ![n, c]⟩ : Shape).Idx) : Fin n := ⟨(i 0).val, idx2_lt0 i⟩
/-- The column coordinate of an index, as a number below the column extent. -/
abbrev colOf {n c : Nat} (i : (⟨2, ![n, c]⟩ : Shape).Idx) : Fin c := ⟨(i 1).val, idx2_lt1 i⟩

/-- Rows against columns: entry (r, c) is Σ_q a(r,q)·W(q,c). -/
def rowsMul (a : Arr2 n k) (W : Arr2 k c) : Arr2 n c :=
  fun i => ∑ q : Fin k, a (ix2 (rowOf i) q) * W (ix2 q (colOf i))

/-- A row vector added to every row. -/
def addRow (v : Arr2 n c) (b : Arr1 c) : Arr2 n c := fun i => v i + b (ix1 (colOf i))

/-- One layer: the aggregated rows through `Wl`, the rows themselves through `Wr`, the bias, clipped below at zero. -/
def layer (a x : Arr2 n k) (Wl Wr : Arr2 k c) (b : Arr1 c) : Arr2 n c :=
  fun i => max (rowsMul a Wl i + rowsMul x Wr i + b (ix1 (colOf i))) zeroF

/-- A linear head. -/
def head (h : Arr2 n k) (W : Arr2 k c) (b : Arr1 c) : Arr2 n c :=
  fun i => rowsMul h W i + b (ix1 (colOf i))

/-- `rowsMul` at row `r` reads row `r` of its row operand only. -/
theorem rowsMul_rows (A : Arr2 N k) (a : Arr2 n k) (W : Arr2 k c) (I : (⟨2, ![N, c]⟩ : Shape).Idx)
    (i : (⟨2, ![n, c]⟩ : Shape).Idx) (hc : (I 1).val = (i 1).val)
    (ha : ∀ q : Fin k, A (ix2 (rowOf I) q) = a (ix2 (rowOf i) q)) :
    rowsMul A W I = rowsMul a W i := by
  unfold rowsMul
  refine Finset.sum_congr rfl fun q _ => ?_
  rw [ha q]
  have : colOf I = colOf i := Fin.ext hc
  rw [this]

/-- A block of rows of a layer is the layer of the blocks of rows. -/
theorem layer_rows (A X : Arr2 N k) (a x : Arr2 n k) (Wl Wr : Arr2 k c) (b : Arr1 c)
    (I : (⟨2, ![N, c]⟩ : Shape).Idx) (i : (⟨2, ![n, c]⟩ : Shape).Idx) (hc : (I 1).val = (i 1).val)
    (ha : ∀ q : Fin k, A (ix2 (rowOf I) q) = a (ix2 (rowOf i) q))
    (hx : ∀ q : Fin k, X (ix2 (rowOf I) q) = x (ix2 (rowOf i) q)) :
    layer A X Wl Wr b I = layer a x Wl Wr b i := by
  unfold layer
  rw [rowsMul_rows A a Wl I i hc ha, rowsMul_rows X x Wr I i hc hx]
  have : colOf I = colOf i := Fin.ext hc
  rw [this]

/-- A block of rows of a head is the head of the block of rows. -/
theorem head_rows (H : Arr2 N k) (h : Arr2 n k) (W : Arr2 k c) (b : Arr1 c)
    (I : (⟨2, ![N, c]⟩ : Shape).Idx) (i : (⟨2, ![n, c]⟩ : Shape).Idx) (hc : (I 1).val = (i 1).val)
    (hh : ∀ q : Fin k, H (ix2 (rowOf I) q) = h (ix2 (rowOf i) q)) :
    head H W b I = head h W b i := by
  unfold head
  rw [rowsMul_rows H h W I i hc hh]
  have : colOf I = colOf i := Fin.ext hc
  rw [this]

end Cert.Sage

end
-- ==== Proof.LibGraphRows.lean ====
/-
  Row-wise pieces of a degree-normalised graph convolution, on the extended reals, beside the rows-against-columns
  product `rowsMul`:

    scaleRows h w   : entry (e, f) is h(e, f) · w(e, 0)            — every row of `h` scaled by that row's weight;
    addRowOf v b    : entry (r, c) is v(r, c) + b(0, c)            — one row vector added to every row;
    addRowClip v b  : entry (r, c) is max (v(r, c) + b(0, c)) 0    — the same, clipped below at the float zero.

  Each depends on row r of its row operand(s) only, so a block of consecutive rows of the result is the same
  function of the same block of rows (`scaleRows_rows`, `addRowOf_rows`, `addRowClip_rows`).
-/
import proofs.«155850_j43215960932691_2_alg».proof.Proof.LibRowsLayer

noncomputable section

namespace Cert.Sage

open Idealize.ShloMosaic Idealize.ShloMosaic.ValueIdx

variable {n N k c : Nat}

/-- Every row scaled by its own weight: entry (e, f) is h(e, f) · w(e, 0). -/
def scaleRows (h : Arr2 n c) (w : Arr2 n 1) : Arr2 n c :=
  fun i => h i * w (ix2 (rowOf i) (0 : Fin 1))

/-- A row vector, kept as a one-row array, added to every row. -/
def addRowOf (v : Arr2 n c) (b : Arr2 1 c) : Arr2 n c :=
  fun i => v i + b (ix2 (0 : Fin 1) (colOf i))

/-- The same, clipped below at the float zero. -/
def addRowClip (v : Arr2 n c) (b : Arr2 1 c) : Arr2 n c :=
  fun i => max (v i + b (ix2 (0 : Fin 1) (colOf i))) zeroF

/-- A block of rows of `scaleRows` is `scaleRows` of the blocks of rows. -/
theorem scaleRows_rows (H : Arr2 N c) (W : Arr2 N 1) (h : Arr2 n c) (w : Arr2 n 1)
    (I : (⟨2, ![N, c]⟩ : Shape).Idx) (i : (⟨2, ![n, c]⟩ : Shape).Idx)
    (hh : H I = h i) (hw : W (ix2 (rowOf I) (0 : Fin 1)) = w (ix2 (rowOf i) (0 : Fin 1))) :
    scaleRows H W I = scaleRows h w i := by
  unfold scaleRows; rw [hh, hw]

/-- A block of rows of `addRowOf` is `addRowOf` of the block of rows. -/
theorem addRowOf_rows (V : Arr2 N c) (v : Arr2 n c) (b : Arr2 1 c)
    (I : (⟨2, ![N, c]⟩ : Shape).Idx) (i : (⟨2, ![n, c]⟩ : Shape).Idx) (hc : (I 1).val = (i 1).val)
    (hv : V I = v i) : addRowOf V b I = addRowOf v b i := by
  unfold addRowOf
  have : colOf I = colOf i := Fin.ext hc
  rw [hv, this]

/-- A block of rows of `addRowClip` is `addRowClip` of the block of rows. -/
theorem addRowClip_rows (V : Arr2 N c) (v : Arr2 n c) (b : Arr2 1 c)
    (I : (⟨2, ![N, c]⟩ : Shape).Idx) (i : (⟨2, ![n, c]⟩ : Shape).Idx) (hc : (I 1).val = (i 1).val)
    (hv : V I = v i) : addRowClip V b I = addRowClip v b i := by
  unfold addRowClip
  have : colOf I = colOf i := Fin.ext hc
  rw [hv, this]

end Cert.Sage

end
-- ==== Proof.KernelSpec.lean ====
/-
  The idealized kernel's result as ONE function of its six argument arrays.

  `kernelOut x e w1 b1 w2 b2`: with the sources, destinations and inverse-square-root degrees of the edge list `e`
  (self-loops appended), a layer multiplies the node features by its weights, picks the product's rows along the
  sources, scales each picked row by dis[source]·dis[destination], adds the rows up along the destinations and adds
  the bias row; the first layer clips the sum below at zero, and the second layer is applied to the first's result.
-/
import proofs.«155850_j43215960932691_2_alg».proof.Proof.HostPieces
import proofs.«155850_j43215960932691_2_alg».proof.Proof.HostMid
import proofs.«155850_j43215960932691_2_alg».proof.Proof.HostAgg
import proofs.«155850_j43215960932691_2_alg».proof.Proof.LibGraphRows

noncomputable section

namespace Cert.KernelIdeal.Chain

open Cert.KernelIdeal Cert.KernelIdeal.Gen Cert.KernelIdeal.Host Cert.Sage
open Idealize.ShloMosaic

/-! ## The result as a function of the arguments -/

section Spec
variable (x : (⟨S100000x4, .f32⟩ : BufTy).Contents (Elt Ideal)) (e : (⟨S2x6400000, .i32⟩ : BufTy).Contents (Elt Ideal)) (w1 : (⟨S4x16, .f32⟩ : BufTy).Contents (Elt Ideal)) (b1 : (⟨S16, .f32⟩ : BufTy).Contents (Elt Ideal))
  (w2 : (⟨S16x2, .f32⟩ : BufTy).Contents (Elt Ideal)) (b2 : (⟨S2, .f32⟩ : BufTy).Contents (Elt Ideal))

/-- The per-edge weights of the graph, as a column. -/
def edgeCoef : (⟨S6500000x1, .f32⟩ : BufTy).Contents (Elt Ideal) := coefCol (disOf (dstOf e)) (srcOf e) (dstOf e)

/-- The first layer: 4 features in, 16 out, clipped below at zero. -/
def layer1 : (⟨S100000x16, .f32⟩ : BufTy).Contents (Elt Ideal) :=
  addRowClip (n := 100000) (c := 16)
    (scatterRows16 (dstOf e) (scaleRows (n := 6500000) (c := 16) (gatherRows16 (rowsMul (n := 100000) (k := 4) (c := 16) x w1) (srcOf e)) (edgeCoef e)))
    (biasRow16 b1)

/-- The second layer: 16 features in, 2 out. -/
def layer2 (h : (⟨S100000x16, .f32⟩ : BufTy).Contents (Elt Ideal)) : (⟨S100000x2, .f32⟩ : BufTy).Contents (Elt Ideal) :=
  addRowOf (n := 100000) (c := 2)
    (scatterRows2 (dstOf e) (scaleRows (n := 6500000) (c := 2) (gatherRows2 (rowsMul (n := 100000) (k := 16) (c := 2) h w2) (srcOf e)) (edgeCoef e)))
    (biasRow2 b2)

/-- Both layers. -/
def kernelOut : (⟨S100000x2, .f32⟩ : BufTy).Contents (Elt Ideal) := layer2 e w2 b2 (layer1 x e w1 b1)

end Spec

end Cert.KernelIdeal.Chain

end
-- ==== Proof.HostLead.lean ====
/-
  The leading stretch of host operations (before the first kernel region), read at the buffers later segments use.

  Whatever the buffers hold when the stretch starts (`W`), after it: `main_v3` holds the sources and `main_v6` the
  destinations of the edge list in `main_arg1` with the self-loops appended, `main_v14` the inverse square roots of the
  in-degrees, and no argument array has been written.
-/
import proofs.«155850_j43215960932691_2_alg».proof.Proof.Gen.KernelIdeal.Launch
import proofs.«155850_j43215960932691_2_alg».proof.Proof.HostPieces
import Idealize.ShloMosaic.Lib.StableHlo.Run

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F] (W : Valuation τ sig (Elt F))

/-- Closes `after ops W b = W b` for a buffer `b` that no operation of the stretch writes. -/
macro "keep_host" : tactic => `(tactic|
  exact StableHlo.after_of_forall_not_mem _ _ (List.forall_iff_forall_mem.mp (by
    simp only [hostOps0, hostOps0_1, hostOps1, hostOps2, hostOps4, hostOps5, List.Forall, StableHlo.nullary_writes, StableHlo.unary_writes,
      StableHlo.binary_writes, StableHlo.ternary_writes, StableHlo.quaternary_writes, StableHlo.reshape_writes,
      StableHlo.binaryIndexed_writes, Finset.mem_singleton]
    repeat' apply And.intro
    all_goals exact StableHlo.devRef_ne_of_ne (by decide))))

/-- The two leading stretches, one after the other. -/
abbrev lead (W : Valuation τ sig (Elt F)) : Valuation τ sig (Elt F) := after hostOps0_1 (after hostOps0 W)

theorem lead_src : lead W (Proc.devRef .tc main_v3) = srcOf (W (Proc.devRef .tc main_arg1)) := by
  refine (by keep_host : lead W (Proc.devRef .tc main_v3) = after hostOps0 W (Proc.devRef .tc main_v3)).trans ?_
  after_results
  rfl

theorem lead_dst : lead W (Proc.devRef .tc main_v6) = dstOf (W (Proc.devRef .tc main_arg1)) := by
  refine (by keep_host : lead W (Proc.devRef .tc main_v6) = after hostOps0 W (Proc.devRef .tc main_v6)).trans ?_
  after_results
  rfl

/-- The outlined selection: where the mask is set the second operand, elsewhere the broadcast third. -/
theorem where_call : after hostOps0_1 W (Proc.devRef .tc main_v14)
    = select (W (Proc.devRef .tc main_v12)) (W (Proc.devRef .tc main_v13))
        (broadcastInDim S100000 ![] bcast_S_S100000 (id (W (Proc.devRef .tc main_cst_2)))) := by
  after_results
  rfl

/-- The mask: where the degree is positive. -/
theorem lead0_mask : after hostOps0 W (Proc.devRef .tc main_v12)
    = cmpf (F := F) .ogt (degOf (dstOf (W (Proc.devRef .tc main_arg1)))) (broadcastInDim S100000 ![] bcast_S_S100000 (constant S_ .f32 0x00000000#32)) := by
  after_results_simp
  rfl

/-- The inverse square root of the degree. -/
theorem lead0_rsqrt : after hostOps0 W (Proc.devRef .tc main_v13) = Host.rsqrt (degOf (dstOf (W (Proc.devRef .tc main_arg1)))) := by
  after_results_simp
  rfl

/-- The zero the selection falls back to. -/
theorem lead0_zero : after hostOps0 W (Proc.devRef .tc main_cst_2) = constant S_ .f32 0x00000000#32 := by
  after_results_simp

theorem lead_dis : lead W (Proc.devRef .tc main_v14) = disOf (dstOf (W (Proc.devRef .tc main_arg1))) := by
  show after hostOps0_1 (after hostOps0 W) (Proc.devRef .tc main_v14) = _
  rw [where_call, lead0_mask, lead0_rsqrt, lead0_zero]
  rfl

theorem lead_arg0 : lead W (Proc.devRef .tc main_arg0) = W (Proc.devRef .tc main_arg0) :=
  (by keep_host : lead W (Proc.devRef .tc main_arg0) = after hostOps0 W (Proc.devRef .tc main_arg0)).trans (by keep_host)
theorem lead_arg2 : lead W (Proc.devRef .tc main_arg2) = W (Proc.devRef .tc main_arg2) :=
  (by keep_host : lead W (Proc.devRef .tc main_arg2) = after hostOps0 W (Proc.devRef .tc main_arg2)).trans (by keep_host)
theorem lead_arg3 : lead W (Proc.devRef .tc main_arg3) = W (Proc.devRef .tc main_arg3) :=
  (by keep_host : lead W (Proc.devRef .tc main_arg3) = after hostOps0 W (Proc.devRef .tc main_arg3)).trans (by keep_host)
theorem lead_arg4 : lead W (Proc.devRef .tc main_arg4) = W (Proc.devRef .tc main_arg4) :=
  (by keep_host : lead W (Proc.devRef .tc main_arg4) = after hostOps0 W (Proc.devRef .tc main_arg4)).trans (by keep_host)
theorem lead_arg5 : lead W (Proc.devRef .tc main_arg5) = W (Proc.devRef .tc main_arg5) :=
  (by keep_host : lead W (Proc.devRef .tc main_arg5) = after hostOps0 W (Proc.devRef .tc main_arg5)).trans (by keep_host)

end Cert.KernelIdeal.Host

end
-- ==== Proof.LibRowsDot.lean ====
/-
  A plain matrix product read as rows against columns.

  A `tpu.matmul` of an [n, k] array with a [k, c] array into a zero accumulator, whose dimension numbers
  contract the second axis of the left operand with the first of the right and keep the other two in
  order, is at entry (p, q) the sum over the contraction position of left(p, ·)·right(·, q): `rowsMul`.
  The four coordinate facts of the dimension numbers are hypotheses (each record proves them by unfolding).
-/
import proofs.«155850_j43215960932691_2_alg».proof.Proof.LibRowsLayer
import Idealize.ShloMosaic.PureOps.Ideal.Laws

noncomputable section

namespace Cert.Sage

open Idealize.ShloMosaic Idealize.ShloMosaic.ValueIdx
open scoped BigOperators

/-- The matrix product into zeros, at entry (p, q), is the row–column sum. -/
theorem matmul_zero_rows {n k c : Nat} {φ₁ φ₂ : FTy}
    (D : DotDims ⟨2, ![n, k]⟩ ⟨2, ![k, c]⟩ ⟨2, ![n, c]⟩) (hr : D.contr.rank = 1)
    (hs : D.contr.size ⟨0, by omega⟩ = k)
    (l0 : ∀ (i : (⟨2, ![n, c]⟩ : Shape).Idx) (q : D.contr.Idx), (D.lhsIdx i q 0).val = (i 0).val)
    (l1 : ∀ (i : (⟨2, ![n, c]⟩ : Shape).Idx) (q : D.contr.Idx), (D.lhsIdx i q 1).val = (q ⟨0, by omega⟩).val)
    (r0 : ∀ (i : (⟨2, ![n, c]⟩ : Shape).Idx) (q : D.contr.Idx), (D.rhsIdx i q 0).val = (q ⟨0, by omega⟩).val)
    (r1 : ∀ (i : (⟨2, ![n, c]⟩ : Shape).Idx) (q : D.contr.Idx), (D.rhsIdx i q 1).val = (i 1).val)
    (prec : Option ContractPrecision) (a : FVec Ideal ⟨2, ![n, k]⟩ φ₁) (W : FVec Ideal ⟨2, ![k, c]⟩ φ₂)
    (p : Fin n) (q : Fin c) :
    matmul D prec a W (constant ⟨2, ![n, c]⟩ .f32 0x00000000#32) (ix2 p q) = rowsMul (n := n) (k := k) (c := c) a W (ix2 p q) := by
  show FloatOps.matmul D prec a W (constant ⟨2, ![n, c]⟩ .f32 0x00000000#32) (ix2 p q) = _
  rw [Ideal.matmul_constant_zero_apply, ← Equiv.sum_comp (contrEquiv1 D k hr hs).symm]
  unfold rowsMul
  refine Finset.sum_congr rfl fun j _ => ?_
  have hk := contrEquiv1_symm_val D k hr hs j
  have el : D.lhsIdx (ix2 p q) ((contrEquiv1 D k hr hs).symm j) = ix2 p j := funext fun ax => Fin.ext (by
    match ax with
    | ⟨0, _⟩ => exact l0 _ _
    | ⟨1, _⟩ => exact (l1 _ _).trans hk)
  have er : D.rhsIdx (ix2 p q) ((contrEquiv1 D k hr hs).symm j) = ix2 j q := funext fun ax => Fin.ext (by
    match ax with
    | ⟨0, _⟩ => exact (r0 _ _).trans hk
    | ⟨1, _⟩ => exact r1 _ _)
  rw [el, er]
  rfl

end Cert.Sage

end
-- ==== Proof.Region0.lean ====
/-
  Region 0: rows against columns, ten blocks of 10000 rows each. Entry (r, c) of the result is the sum over
  the 4 contraction positions of the row operand's (r, ·) times the small matrix's (·, c).
-/
import proofs.«155850_j43215960932691_2_alg».proof.Proof.Gen.KernelIdeal.Frame
import proofs.«155850_j43215960932691_2_alg».proof.Proof.LibGraphRows
import proofs.«155850_j43215960932691_2_alg».proof.Proof.LibRowsDot
import Idealize.ShloMosaic.Lib.Pipeline.Value
import Idealize.ShloMosaic.Lib.ValueIdx
import Idealize.ShloMosaic.Lib.ValueLayout

noncomputable section

namespace Cert.KernelIdeal.Region0

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Both offsets of a whole-block access are zero. -/
theorem hz : (![0, 0] : Fin 2 → Nat) = fun _ => 0 := funext fun a => by fin_cases a <;> rfl

/-! ## The product's dimension numbers, coordinate by coordinate

The left operand's second axis is contracted with the right operand's first; the result keeps the left
operand's first axis, then the right operand's second. -/

/-- The product's dimension numbers. -/
abbrev D : DotDims S10000x4 S4x16 S10000x16 := dot_S10000x4_S4x16_S10000x16_1_0_0_1_n_n

/-- One axis is contracted. -/
theorem contr_rank : D.contr.rank = 1 := rfl

/-- It has the 4 positions of the left operand's second axis. -/
theorem contr_size : D.contr.size ⟨0, by rw [contr_rank]; exact Nat.one_pos⟩ = 4 := rfl

/-- The left operand's row coordinate is the result's. -/
theorem lhs0 (i : S10000x16.Idx) (k : D.contr.Idx) : (D.lhsIdx i k 0).val = (i 0).val := by
  unfold DotDims.lhsIdx
  rw [dif_neg (by decide : (0 : Fin S10000x4.rank) ∉ D.lhsBatch),
    dif_pos (by decide : (0 : Fin S10000x4.rank) ∈ D.lhsNonContracting)]
  rfl

/-- The left operand's column coordinate is the contraction position. -/
theorem lhs1 (i : S10000x16.Idx) (k : D.contr.Idx) :
    (D.lhsIdx i k 1).val = (k ⟨0, by rw [contr_rank]; exact Nat.one_pos⟩).val :=
  D.lhsIdx_val_of_single (cl := 1) rfl i k

/-- The right operand's row coordinate is the contraction position. -/
theorem rhs0 (i : S10000x16.Idx) (k : D.contr.Idx) :
    (D.rhsIdx i k 0).val = (k ⟨0, by rw [contr_rank]; exact Nat.one_pos⟩).val :=
  D.rhsIdx_val_of_single (cr := 0) rfl i k

/-- The right operand's column coordinate is the result's. -/
theorem rhs1 (i : S10000x16.Idx) (k : D.contr.Idx) : (D.rhsIdx i k 1).val = (i 1).val := by
  unfold DotDims.rhsIdx
  rw [dif_neg (by decide : (1 : Fin S4x16.rank) ∉ D.rhsBatch),
    dif_pos (by decide : (1 : Fin S4x16.rank) ∈ D.rhsNonContracting)]
  rfl

/-- The index maps over the ten grid points: the row operand and the result move with the point along the
    rows, the small matrix stays at block (0, 0). -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's value at (p, q): row p of the block against column q of the small matrix (the narrowing of
    both operands is the identity on the extended reals, the accumulator starts at zero). -/
theorem pay (x0 : FVec Ideal S10000x4 .f32) (x1 : FVec Ideal S4x16 .f32) (p : Fin 10000) (q : Fin 16) :
    k0_pay1 (F := Ideal) x0 x1 (ix2 p q) = Cert.Sage.rowsMul (n := 10000) (k := 4) (c := 16) x0 x1 (ix2 p q) := by
  unfold k0_pay1
  exact Cert.Sage.matmul_zero_rows D contr_rank contr_size lhs0 lhs1 rhs0 rhs1 none
    (truncf .bf16 x0 bitsLt_bf16_f32) (truncf .bf16 x1 bitsLt_bf16_f32) p q

/-- What point t writes back is block t of the rows of the row operand against the columns of the small matrix. -/
theorem flushed_eq (c : Dev nD) (t : Fin cfg0.N) :
    (dat0 V c).flushed 2 t = ((cfg0.win 2).blk t).view.read (Elt Ideal)
      (Cert.Sage.rowsMul (n := 100000) (k := 4) (c := 16) (V c main_arg0) (V c main_arg2)) := by
  show (cfg0.win 2).cut (grid0.coords t) ((dat0 V c).after 2 t) = _
  rw [after0_2]
  unfold out0_2
  rw [View.canon_unit_zero hz]
  simp only [View.ld_unit_zero (S := S10000x4) hz, View.ld_unit_zero (S := S4x16) hz]
  obtain ⟨e0, e1, e2, e3, e4, e5⟩ := idx t
  refine funext fun (j : S10000x16.Idx) => ?_
  obtain ⟨p, q, rfl⟩ : ∃ (p : Fin 10000) (q : Fin 16), j = ix2 p q := ⟨j 0, j 1, eq_ix2 j⟩
  have hc : ((((cfg0.win 2).blk t).view.emb (ix2 p q)) 1).val = ((ix2 p q : S10000x16.Idx) 1).val := by
    show win0_2.index t (1 : Fin 2) * 16 + 1 * q.val = q.val; omega
  have ha : ∀ r : Fin 4, V c main_arg0 (ix2 (Cert.Sage.rowOf (((cfg0.win 2).blk t).view.emb (ix2 p q))) r)
      = iblk0 V c 0 t (ix2 (Cert.Sage.rowOf (ix2 p q : S10000x16.Idx)) r) := by
    intro r
    show V c main_arg0 (ix2 (Cert.Sage.rowOf (((cfg0.win 2).blk t).view.emb (ix2 p q))) r)
      = V c main_arg0 (((cfg0.win 0).blk t).view.emb (ix2 (Cert.Sage.rowOf (ix2 p q : S10000x16.Idx)) r))
    refine congrArg (V c main_arg0) (funext fun a => Fin.ext ?_)
    match a with
    | ⟨0, _⟩ => show win0_2.index t (0 : Fin 2) * 10000 + 1 * p.val = win0_0.index t (0 : Fin 2) * 10000 + 1 * p.val; omega
    | ⟨1, _⟩ => show r.val = win0_0.index t (1 : Fin 2) * 4 + 1 * r.val; omega
  have hW : (iblk0 V c 1 t : Cert.Sage.Arr2 4 16) = V c main_arg2 := by
    refine funext fun (y : S4x16.Idx) => ?_
    show V c main_arg2 (((cfg0.win 1).blk t).view.emb y) = V c main_arg2 y
    refine congrArg (V c main_arg2) (funext fun a => Fin.ext ?_)
    match a with
    | ⟨0, _⟩ => show win0_1.index t (0 : Fin 2) * 4 + 1 * (y 0).val = (y 0).val; omega
    | ⟨1, _⟩ => show win0_1.index t (1 : Fin 2) * 16 + 1 * (y 1).val = (y 1).val; omega
  show k0_pay1 (iblk0 V c 0 t) (iblk0 V c 1 t) (ix2 p q)
    = Cert.Sage.rowsMul (n := 100000) (k := 4) (c := 16) (V c main_arg0) (V c main_arg2) (((cfg0.win 2).blk t).view.emb (ix2 p q))
  refine (pay _ _ p q).trans ?_
  refine Eq.trans ?_ (Cert.Sage.rowsMul_rows (V c main_arg0) (iblk0 V c 0 t) (V c main_arg2) _ (ix2 p q) hc ha).symm
  exact congrArg (fun W : Cert.Sage.Arr2 4 16 => Cert.Sage.rowsMul (n := 10000) (k := 4) (c := 16) (iblk0 V c 0 t) W (ix2 p q)) hW

/-- An index of the array is in point t's block iff each coordinate is in the block's range on its axis. -/
theorem mem_blk (t : Fin cfg0.N) (i : S100000x16.Idx) :
    i ∈ ((cfg0.win 2).blk t).view.set ↔ ∀ a : Fin 2, win0_2.index t a * S10000x16.size a ≤ (i a).val
      ∧ (i a).val < win0_2.index t a * S10000x16.size a + S10000x16.size a := by
  show i ∈ ((View.whole main_v15).slice (win0_2.rect t)).set ↔ _
  rw [View.set_slice_whole, Rect.mem_set_unit]
  exact Iff.rfl

/-- Row r of the array lies in the block of point r / 10000: the ten blocks tile the 100000 rows. -/
theorem cover (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨e0, e1, e2, e3, e4, e5⟩ := idx t
  refine ⟨t, flush0_2 t, ?_⟩
  rw [mem_blk]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 16 ≤ (i 1).val ∧ (i 1).val < win0_2.index t (1 : Fin 2) * 16 + 16
    omega

/-- The array the region leaves: the rows of the row operand against the columns of the small matrix. -/
theorem final (c : Dev nD) : (dat0 V c).arrAt 2 cfg0.N
    = Cert.Sage.rowsMul (n := 100000) (k := 4) (c := 16) (V c main_arg0) (V c main_arg2) :=
  (dat0 V c).arrAt_eq_of_cover 2 _ (fun t _ => flushed_eq V c t) cover

end Cert.KernelIdeal.Region0

end
-- ==== Proof.LibKeepdims.lean ====
/-
  Layout and contraction operations of a row-wise kernel body, read at an index written by coordinates, at the
  ideal values. A sum kept as a column (`keepdims`) goes through two layout steps the coordinate forms below read:
  a vector `[a]` recast as a column `[a, 1]`, and a column `[a, 1]` broadcast along the rows of `[a, b]`.
  With them: a lane sum of a matrix read at a row as the sum over that row, and a matrix product into a zero
  accumulator read at `(r, n)` as the sum over the contracted coordinate of row `r` times column `n`.
-/
import Idealize.ShloMosaic.Lib.ValueLayout
import Idealize.ShloMosaic.Lib.ValueIdx
import Idealize.ShloMosaic.PureOps.Ideal.Laws

noncomputable section

namespace Cert.LibKeepdims

open Idealize.ShloMosaic Idealize.ShloMosaic.ValueIdx

variable {α : Type}

/-- A vector `[a]` recast as the column `[a, 1]` reads, at `(i, u)`, the vector at `i`: the row-major position of
    `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential of a vector, read at an index, is the exponential of the entry. -/
theorem exp_apply {s : Shape} {φ : FTy} (v : FVec Ideal s φ) (i : s.Idx) : exp v i = Ideal.exp (v i) := rfl

/-- The host's exponential of an array likewise. -/
theorem hostExp_apply {s : Shape} {φ : FTy} (v : FVec Ideal s φ) (i : s.Idx) : Host.exp v i = Ideal.exp (v i) := rfl

/-- A float scalar constant at the ideal values is the extended real its pattern denotes. -/
theorem scalar_ofBits (φ : FTy) (b : BitVec φ.bits) : Scalar.ofBits (F := Ideal) φ b = Ideal.ofBits φ b := rfl

end Cert.LibKeepdims

end
-- ==== Proof.Region1.lean ====
/-
  Region 1: every row scaled by that row's own weight, five hundred blocks of 13000 rows each.
-/
import proofs.«155850_j43215960932691_2_alg».proof.Proof.Gen.KernelIdeal.Frame
import proofs.«155850_j43215960932691_2_alg».proof.Proof.LibGraphRows
import proofs.«155850_j43215960932691_2_alg».proof.Proof.LibKeepdims
import Idealize.ShloMosaic.Lib.Pipeline.Value
import Idealize.ShloMosaic.Lib.ValueIdx
import Idealize.ShloMosaic.Lib.ValueLayout

noncomputable section

namespace Cert.KernelIdeal.Region1

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Both offsets of a whole-block access are zero. -/
theorem hz : (![0, 0] : Fin 2 → Nat) = fun _ => 0 := funext fun a => by fin_cases a <;> rfl

/-- The index maps over the five hundred grid points: both operands and the result move with the point along
    the rows. -/
theorem idx : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The body's value at (p, q): the block's entry times the weight of row p. -/
theorem pay (x0 : FVec Ideal S13000x16 .f32) (x1 : FVec Ideal S13000x1 .f32) (p : Fin 13000) (q : Fin 16) :
    k1_pay1 x0 x1 (ix2 p q) = x0 (ix2 p q) * x1 (ix2 p (0 : Fin 1)) := by
  unfold k1_pay1
  rw [shapeCast_self, shapeCast_self]
  show mulf x0 (broadcastTo S13000x16 x1 broadcasts_S13000x1_S13000x16) (ix2 p q) = _
  rw [mulf_apply, Cert.LibKeepdims.broadcastTo_a1_ab_apply]

/-- What point t writes back is block t of the rows scaled by their weights. -/
theorem flushed_eq (c : Dev nD) (t : Fin cfg1.N) :
    (dat1 V c).flushed 2 t = ((cfg1.win 2).blk t).view.read (Elt Ideal)
      (Cert.Sage.scaleRows (n := 6500000) (c := 16) (V c main_v37) (V c main_v38)) := by
  show (cfg1.win 2).cut (grid1.coords t) ((dat1 V c).after 2 t) = _
  rw [after1_2]
  unfold out1_2
  rw [View.canon_unit_zero hz]
  simp only [View.ld_unit_zero (S := S13000x16) hz, View.ld_unit_zero (S := S13000x1) hz]
  obtain ⟨e0, e1, e2, e3, e4, e5⟩ := idx t
  refine funext fun (j : S13000x16.Idx) => ?_
  obtain ⟨p, q, rfl⟩ : ∃ (p : Fin 13000) (q : Fin 16), j = ix2 p q := ⟨j 0, j 1, eq_ix2 j⟩
  have hv : V c main_v37 (((cfg1.win 2).blk t).view.emb (ix2 p q)) = iblk1 V c 0 t (ix2 p q) := by
    show V c main_v37 (((cfg1.win 2).blk t).view.emb (ix2 p q)) = V c main_v37 (((cfg1.win 0).blk t).view.emb (ix2 p q))
    refine congrArg (V c main_v37) (funext fun a => Fin.ext ?_)
    match a with
    | ⟨0, _⟩ => show win1_2.index t (0 : Fin 2) * 13000 + 1 * p.val = win1_0.index t (0 : Fin 2) * 13000 + 1 * p.val; omega
    | ⟨1, _⟩ => show win1_2.index t (1 : Fin 2) * 16 + 1 * q.val = win1_0.index t (1 : Fin 2) * 16 + 1 * q.val; omega
  have hw : V c main_v38 (ix2 (Cert.Sage.rowOf (((cfg1.win 2).blk t).view.emb (ix2 p q))) (0 : Fin 1))
      = iblk1 V c 1 t (ix2 (Cert.Sage.rowOf (ix2 p q : S13000x16.Idx)) (0 : Fin 1)) := by
    show V c main_v38 (ix2 (Cert.Sage.rowOf (((cfg1.win 2).blk t).view.emb (ix2 p q))) (0 : Fin 1))
      = V c main_v38 (((cfg1.win 1).blk t).view.emb (ix2 (Cert.Sage.rowOf (ix2 p q : S13000x16.Idx)) (0 : Fin 1)))
    refine congrArg (V c main_v38) (funext fun a => Fin.ext ?_)
    match a with
    | ⟨0, _⟩ => show win1_2.index t (0 : Fin 2) * 13000 + 1 * p.val = win1_1.index t (0 : Fin 2) * 13000 + 1 * p.val; omega
    | ⟨1, _⟩ => show 0 = win1_1.index t (1 : Fin 2) * 1 + 1 * 0; omega
  show k1_pay1 (iblk1 V c 0 t) (iblk1 V c 1 t) (ix2 p q)
    = Cert.Sage.scaleRows (n := 6500000) (c := 16) (V c main_v37) (V c main_v38) (((cfg1.win 2).blk t).view.emb (ix2 p q))
  refine (pay _ _ p q).trans ?_
  exact (Cert.Sage.scaleRows_rows (V c main_v37) (V c main_v38) (iblk1 V c 0 t) (iblk1 V c 1 t) _ (ix2 p q) hv hw).symm

/-- An index of the array is in point t's block iff each coordinate is in the block's range on its axis. -/
theorem mem_blk (t : Fin cfg1.N) (i : S6500000x16.Idx) :
    i ∈ ((cfg1.win 2).blk t).view.set ↔ ∀ a : Fin 2, win1_2.index t a * S13000x16.size a ≤ (i a).val
      ∧ (i a).val < win1_2.index t a * S13000x16.size a + S13000x16.size a := by
  show i ∈ ((View.whole main_v39).slice (win1_2.rect t)).set ↔ _
  rw [View.set_slice_whole, Rect.mem_set_unit]
  exact Iff.rfl

/-- Row r of the array lies in the block of point r / 13000: the five hundred blocks tile the 6500000 rows. -/
theorem cover (i : S6500000x16.Idx) :
    ∃ t : Fin cfg1.N, (cfg1.win 2).flush t = true ∧ i ∈ ((cfg1.win 2).blk t).view.set := by
  have hi0 : (i 0).val < 6500000 := (i 0).isLt
  have hi1 : (i 1).val < 16 := (i 1).isLt
  have hN : cfg1.N = 500 := N_1
  obtain ⟨t, ht⟩ : ∃ t : Fin cfg1.N, t.val = (i 0).val / 13000 := ⟨⟨(i 0).val / 13000, by rw [hN]; omega⟩, rfl⟩
  obtain ⟨e0, e1, e2, e3, e4, e5⟩ := idx t
  refine ⟨t, flush1_2 t, ?_⟩
  rw [mem_blk]
  intro a
  match a with
  | ⟨0, _⟩ =>
    show win1_2.index t (0 : Fin 2) * 13000 ≤ (i 0).val ∧ (i 0).val < win1_2.index t (0 : Fin 2) * 13000 + 13000
    omega
  | ⟨1, _⟩ =>
    show win1_2.index t (1 : Fin 2) * 16 ≤ (i 1).val ∧ (i 1).val < win1_2.index t (1 : Fin 2) * 16 + 16
    omega

/-- The array the region leaves: every row of the row operand scaled by its weight. -/
theorem final (c : Dev nD) : (dat1 V c).arrAt 2 cfg1.N
    = Cert.Sage.scaleRows (n := 6500000) (c := 16) (V c main_v37) (V c main_v38) :=
  (dat1 V c).arrAt_eq_of_cover 2 _ (fun t _ => flushed_eq V c t) cover

end Cert.KernelIdeal.Region1

end
-- ==== Proof.Region2.lean ====
/-
  Region 2: one row vector added to every row and the sum clipped below at the float zero, ten blocks of
  10000 rows each.
-/
import proofs.«155850_j43215960932691_2_alg».proof.Proof.Gen.KernelIdeal.Frame
import proofs.«155850_j43215960932691_2_alg».proof.Proof.LibGraphRows
import Idealize.ShloMosaic.Lib.Pipeline.Value
import Idealize.ShloMosaic.Lib.ValueIdx
import Idealize.ShloMosaic.Lib.ValueLayout

noncomputable section

namespace Cert.KernelIdeal.Region2

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Both offsets of a whole-block access are zero. -/
theorem hz : (![0, 0] : Fin 2 → Nat) = fun _ => 0 := funext fun a => by fin_cases a <;> rfl

/-- Equal right summands give equal clipped sums. -/
theorem add_right {a b d z : Ideal .f32} (h : b = d) : max (a + b) z = max (a + d) z :=
  congrArg (fun y => max (a + y) z) h

/-- The index maps over the ten grid points: the row operand and the result move with the point along the
    rows, the row vector stays at block (0, 0). -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's value at (p, q): the block's entry plus the row vector's entry of column q, clipped below at
    the float zero. -/
theorem pay (x0 : FVec Ideal S10000x16 .f32) (x1 : FVec Ideal S1x16 .f32) (p : Fin 10000) (q : Fin 16) :
    k2_pay1 x0 x1 (ix2 p q) = max (x0 (ix2 p q) + x1 (ix2 (0 : Fin 1) q)) Cert.Sage.zeroF := by
  unfold k2_pay1
  rw [shapeCast_self, shapeCast_self]
  show maximumf (addf x0 (broadcastTo S10000x16 x1 broadcasts_S1x16_S10000x16))
    (broadcast S10000x16 (Scalar.ofBits (F := Ideal) .f32 0x00000000#32)) (ix2 p q) = _
  rw [maximumf_apply, addf_apply, broadcastTo_1b_ab_apply, broadcast_apply]
  rfl

/-- What point t writes back is block t of the row vector added to every row of the row operand, clipped below at zero. -/
theorem flushed_eq (c : Dev nD) (t : Fin cfg2.N) :
    (dat2 V c).flushed 2 t = ((cfg2.win 2).blk t).view.read (Elt Ideal)
      (Cert.Sage.addRowClip (n := 100000) (c := 16) (V c main_v42) (V c main_v43)) := by
  show (cfg2.win 2).cut (grid2.coords t) ((dat2 V c).after 2 t) = _
  rw [after2_2]
  unfold out2_2
  rw [View.canon_unit_zero hz]
  simp only [View.ld_unit_zero (S := S10000x16) hz, View.ld_unit_zero (S := S1x16) hz]
  obtain ⟨e0, e1, e2, e3, e4, e5⟩ := idx t
  refine funext fun (j : S10000x16.Idx) => ?_
  obtain ⟨p, q, rfl⟩ : ∃ (p : Fin 10000) (q : Fin 16), j = ix2 p q := ⟨j 0, j 1, eq_ix2 j⟩
  have hc : ((((cfg2.win 2).blk t).view.emb (ix2 p q)) 1).val = ((ix2 p q : S10000x16.Idx) 1).val := by
    show win2_2.index t (1 : Fin 2) * 16 + 1 * q.val = q.val; omega
  have hv : V c main_v42 (((cfg2.win 2).blk t).view.emb (ix2 p q)) = iblk2 V c 0 t (ix2 p q) := by
    show V c main_v42 (((cfg2.win 2).blk t).view.emb (ix2 p q)) = V c main_v42 (((cfg2.win 0).blk t).view.emb (ix2 p q))
    refine congrArg (V c main_v42) (funext fun a => Fin.ext ?_)
    match a with
    | ⟨0, _⟩ => show win2_2.index t (0 : Fin 2) * 10000 + 1 * p.val = win2_0.index t (0 : Fin 2) * 10000 + 1 * p.val; omega
    | ⟨1, _⟩ => show win2_2.index t (1 : Fin 2) * 16 + 1 * q.val = win2_0.index t (1 : Fin 2) * 16 + 1 * q.val; omega
  have hb : iblk2 V c 1 t (ix2 (0 : Fin 1) q) = V c main_v43 (ix2 (0 : Fin 1) q) := by
    show V c main_v43 (((cfg2.win 1).blk t).view.emb (ix2 (0 : Fin 1) q)) = V c main_v43 (ix2 (0 : Fin 1) q)
    refine congrArg (V c main_v43) (funext fun a => Fin.ext ?_)
    match a with
    | ⟨0, _⟩ => show win2_1.index t (0 : Fin 2) * 1 + 1 * 0 = 0; omega
    | ⟨1, _⟩ => show win2_1.index t (1 : Fin 2) * 16 + 1 * q.val = q.val; omega
  show k2_pay1 (iblk2 V c 0 t) (iblk2 V c 1 t) (ix2 p q)
    = Cert.Sage.addRowClip (n := 100000) (c := 16) (V c main_v42) (V c main_v43) (((cfg2.win 2).blk t).view.emb (ix2 p q))
  refine (pay _ _ p q).trans ?_
  refine Eq.trans ?_ (Cert.Sage.addRowClip_rows (V c main_v42) (iblk2 V c 0 t) (V c main_v43) _ (ix2 p q) hc hv).symm
  exact add_right hb

/-- An index of the array is in point t's block iff each coordinate is in the block's range on its axis. -/
theorem mem_blk (t : Fin cfg2.N) (i : S100000x16.Idx) :
    i ∈ ((cfg2.win 2).blk t).view.set ↔ ∀ a : Fin 2, win2_2.index t a * S10000x16.size a ≤ (i a).val
      ∧ (i a).val < win2_2.index t a * S10000x16.size a + S10000x16.size a := by
  show i ∈ ((View.whole main_v44).slice (win2_2.rect t)).set ↔ _
  rw [View.set_slice_whole, Rect.mem_set_unit]
  exact Iff.rfl

/-- Row r of the array lies in the block of point r / 10000: the ten blocks tile the 100000 rows. -/
theorem cover (i : S100000x16.Idx) :
    ∃ t : Fin cfg2.N, (cfg2.win 2).flush t = true ∧ i ∈ ((cfg2.win 2).blk t).view.set := by
  have hi0 : (i 0).val < 100000 := (i 0).isLt
  have hi1 : (i 1).val < 16 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨e0, e1, e2, e3, e4, e5⟩ := idx t
  refine ⟨t, flush2_2 t, ?_⟩
  rw [mem_blk]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 16 ≤ (i 1).val ∧ (i 1).val < win2_2.index t (1 : Fin 2) * 16 + 16
    omega

/-- The array the region leaves: the row vector added to every row of the row operand, clipped below at zero. -/
theorem final (c : Dev nD) : (dat2 V c).arrAt 2 cfg2.N
    = Cert.Sage.addRowClip (n := 100000) (c := 16) (V c main_v42) (V c main_v43) :=
  (dat2 V c).arrAt_eq_of_cover 2 _ (fun t _ => flushed_eq V c t) cover

end Cert.KernelIdeal.Region2

end
-- ==== Proof.Region3.lean ====
/-
  Region 3: rows against columns, ten blocks of 10000 rows each. Entry (r, c) of the result is the sum over
  the 16 contraction positions of the row operand's (r, ·) times the small matrix's (·, c).
-/
import proofs.«155850_j43215960932691_2_alg».proof.Proof.Gen.KernelIdeal.Frame
import proofs.«155850_j43215960932691_2_alg».proof.Proof.LibGraphRows
import proofs.«155850_j43215960932691_2_alg».proof.Proof.LibRowsDot
import Idealize.ShloMosaic.Lib.Pipeline.Value
import Idealize.ShloMosaic.Lib.ValueIdx
import Idealize.ShloMosaic.Lib.ValueLayout

noncomputable section

namespace Cert.KernelIdeal.Region3

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Both offsets of a whole-block access are zero. -/
theorem hz : (![0, 0] : Fin 2 → Nat) = fun _ => 0 := funext fun a => by fin_cases a <;> rfl

/-! ## The product's dimension numbers, coordinate by coordinate

The left operand's second axis is contracted with the right operand's first; the result keeps the left
operand's first axis, then the right operand's second. -/

/-- The product's dimension numbers. -/
abbrev D : DotDims S10000x16 S16x2 S10000x2 := dot_S10000x16_S16x2_S10000x2_1_0_0_1_n_n

/-- One axis is contracted. -/
theorem contr_rank : D.contr.rank = 1 := rfl

/-- It has the 16 positions of the left operand's second axis. -/
theorem contr_size : D.contr.size ⟨0, by rw [contr_rank]; exact Nat.one_pos⟩ = 16 := rfl

/-- The left operand's row coordinate is the result's. -/
theorem lhs0 (i : S10000x2.Idx) (k : D.contr.Idx) : (D.lhsIdx i k 0).val = (i 0).val := by
  unfold DotDims.lhsIdx
  rw [dif_neg (by decide : (0 : Fin S10000x16.rank) ∉ D.lhsBatch),
    dif_pos (by decide : (0 : Fin S10000x16.rank) ∈ D.lhsNonContracting)]
  rfl

/-- The left operand's column coordinate is the contraction position. -/
theorem lhs1 (i : S10000x2.Idx) (k : D.contr.Idx) :
    (D.lhsIdx i k 1).val = (k ⟨0, by rw [contr_rank]; exact Nat.one_pos⟩).val :=
  D.lhsIdx_val_of_single (cl := 1) rfl i k

/-- The right operand's row coordinate is the contraction position. -/
theorem rhs0 (i : S10000x2.Idx) (k : D.contr.Idx) :
    (D.rhsIdx i k 0).val = (k ⟨0, by rw [contr_rank]; exact Nat.one_pos⟩).val :=
  D.rhsIdx_val_of_single (cr := 0) rfl i k

/-- The right operand's column coordinate is the result's. -/
theorem rhs1 (i : S10000x2.Idx) (k : D.contr.Idx) : (D.rhsIdx i k 1).val = (i 1).val := by
  unfold DotDims.rhsIdx
  rw [dif_neg (by decide : (1 : Fin S16x2.rank) ∉ D.rhsBatch),
    dif_pos (by decide : (1 : Fin S16x2.rank) ∈ D.rhsNonContracting)]
  rfl

/-- The index maps over the ten grid points: the row operand and the result move with the point along the
    rows, the small matrix stays at block (0, 0). -/
theorem idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The body's value at (p, q): row p of the block against column q of the small matrix (the narrowing of
    both operands is the identity on the extended reals, the accumulator starts at zero). -/
theorem pay (x0 : FVec Ideal S10000x16 .f32) (x1 : FVec Ideal S16x2 .f32) (p : Fin 10000) (q : Fin 2) :
    k3_pay1 (F := Ideal) x0 x1 (ix2 p q) = Cert.Sage.rowsMul (n := 10000) (k := 16) (c := 2) x0 x1 (ix2 p q) := by
  unfold k3_pay1
  rw [shapeCast_self]
  exact Cert.Sage.matmul_zero_rows D contr_rank contr_size lhs0 lhs1 rhs0 rhs1 none
    (truncf .bf16 x0 bitsLt_bf16_f32) (truncf .bf16 x1 bitsLt_bf16_f32) p q

/-- What point t writes back is block t of the rows of the row operand against the columns of the small matrix. -/
theorem flushed_eq (c : Dev nD) (t : Fin cfg3.N) :
    (dat3 V c).flushed 2 t = ((cfg3.win 2).blk t).view.read (Elt Ideal)
      (Cert.Sage.rowsMul (n := 100000) (k := 16) (c := 2) (V c main_v44) (V c main_arg4)) := by
  show (cfg3.win 2).cut (grid3.coords t) ((dat3 V c).after 2 t) = _
  rw [after3_2]
  unfold out3_2
  rw [View.canon_unit_zero hz]
  simp only [View.ld_unit_zero (S := S10000x16) hz, View.ld_unit_zero (S := S16x2) hz]
  obtain ⟨e0, e1, e2, e3, e4, e5⟩ := idx t
  refine funext fun (j : S10000x2.Idx) => ?_
  obtain ⟨p, q, rfl⟩ : ∃ (p : Fin 10000) (q : Fin 2), j = ix2 p q := ⟨j 0, j 1, eq_ix2 j⟩
  have hc : ((((cfg3.win 2).blk t).view.emb (ix2 p q)) 1).val = ((ix2 p q : S10000x2.Idx) 1).val := by
    show win3_2.index t (1 : Fin 2) * 2 + 1 * q.val = q.val; omega
  have ha : ∀ r : Fin 16, V c main_v44 (ix2 (Cert.Sage.rowOf (((cfg3.win 2).blk t).view.emb (ix2 p q))) r)
      = iblk3 V c 0 t (ix2 (Cert.Sage.rowOf (ix2 p q : S10000x2.Idx)) r) := by
    intro r
    show V c main_v44 (ix2 (Cert.Sage.rowOf (((cfg3.win 2).blk t).view.emb (ix2 p q))) r)
      = V c main_v44 (((cfg3.win 0).blk t).view.emb (ix2 (Cert.Sage.rowOf (ix2 p q : S10000x2.Idx)) r))
    refine congrArg (V c main_v44) (funext fun a => Fin.ext ?_)
    match a with
    | ⟨0, _⟩ => show win3_2.index t (0 : Fin 2) * 10000 + 1 * p.val = win3_0.index t (0 : Fin 2) * 10000 + 1 * p.val; omega
    | ⟨1, _⟩ => show r.val = win3_0.index t (1 : Fin 2) * 16 + 1 * r.val; omega
  have hW : (iblk3 V c 1 t : Cert.Sage.Arr2 16 2) = V c main_arg4 := by
    refine funext fun (y : S16x2.Idx) => ?_
    show V c main_arg4 (((cfg3.win 1).blk t).view.emb y) = V c main_arg4 y
    refine congrArg (V c main_arg4) (funext fun a => Fin.ext ?_)
    match a with
    | ⟨0, _⟩ => show win3_1.index t (0 : Fin 2) * 16 + 1 * (y 0).val = (y 0).val; omega
    | ⟨1, _⟩ => show win3_1.index t (1 : Fin 2) * 2 + 1 * (y 1).val = (y 1).val; omega
  show k3_pay1 (iblk3 V c 0 t) (iblk3 V c 1 t) (ix2 p q)
    = Cert.Sage.rowsMul (n := 100000) (k := 16) (c := 2) (V c main_v44) (V c main_arg4) (((cfg3.win 2).blk t).view.emb (ix2 p q))
  refine (pay _ _ p q).trans ?_
  refine Eq.trans ?_ (Cert.Sage.rowsMul_rows (V c main_v44) (iblk3 V c 0 t) (V c main_arg4) _ (ix2 p q) hc ha).symm
  exact congrArg (fun W : Cert.Sage.Arr2 16 2 => Cert.Sage.rowsMul (n := 10000) (k := 16) (c := 2) (iblk3 V c 0 t) W (ix2 p q)) hW

/-- An index of the array is in point t's block iff each coordinate is in the block's range on its axis. -/
theorem mem_blk (t : Fin cfg3.N) (i : S100000x2.Idx) :
    i ∈ ((cfg3.win 2).blk t).view.set ↔ ∀ a : Fin 2, win3_2.index t a * S10000x2.size a ≤ (i a).val
      ∧ (i a).val < win3_2.index t a * S10000x2.size a + S10000x2.size a := by
  show i ∈ ((View.whole main_v45).slice (win3_2.rect t)).set ↔ _
  rw [View.set_slice_whole, Rect.mem_set_unit]
  exact Iff.rfl

/-- Row r of the array lies in the block of point r / 10000: the ten blocks tile the 100000 rows. -/
theorem cover (i : S100000x2.Idx) :
    ∃ t : Fin cfg3.N, (cfg3.win 2).flush t = true ∧ i ∈ ((cfg3.win 2).blk t).view.set := by
  have hi0 : (i 0).val < 100000 := (i 0).isLt
  have hi1 : (i 1).val < 2 := (i 1).isLt
  have hN : cfg3.N = 10 := N_3
  obtain ⟨t, ht⟩ : ∃ t : Fin cfg3.N, t.val = (i 0).val / 10000 := ⟨⟨(i 0).val / 10000, by rw [hN]; omega⟩, rfl⟩
  obtain ⟨e0, e1, e2, e3, e4, e5⟩ := idx t
  refine ⟨t, flush3_2 t, ?_⟩
  rw [mem_blk]
  intro a
  match a with
  | ⟨0, _⟩ =>
    show win3_2.index t (0 : Fin 2) * 10000 ≤ (i 0).val ∧ (i 0).val < win3_2.index t (0 : Fin 2) * 10000 + 10000
    omega
  | ⟨1, _⟩ =>
    show win3_2.index t (1 : Fin 2) * 2 ≤ (i 1).val ∧ (i 1).val < win3_2.index t (1 : Fin 2) * 2 + 2
    omega

/-- The array the region leaves: the rows of the row operand against the columns of the small matrix. -/
theorem final (c : Dev nD) : (dat3 V c).arrAt 2 cfg3.N
    = Cert.Sage.rowsMul (n := 100000) (k := 16) (c := 2) (V c main_v44) (V c main_arg4) :=
  (dat3 V c).arrAt_eq_of_cover 2 _ (fun t _ => flushed_eq V c t) cover

end Cert.KernelIdeal.Region3

end
-- ==== Proof.Region4.lean ====
/-
  Region 4: every row scaled by that row's own weight, five hundred blocks of 13000 rows each.
-/
import proofs.«155850_j43215960932691_2_alg».proof.Proof.Gen.KernelIdeal.Frame
import proofs.«155850_j43215960932691_2_alg».proof.Proof.LibGraphRows
import proofs.«155850_j43215960932691_2_alg».proof.Proof.LibKeepdims
import Idealize.ShloMosaic.Lib.Pipeline.Value
import Idealize.ShloMosaic.Lib.ValueIdx
import Idealize.ShloMosaic.Lib.ValueLayout

noncomputable section

namespace Cert.KernelIdeal.Region4

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Both offsets of a whole-block access are zero. -/
theorem hz : (![0, 0] : Fin 2 → Nat) = fun _ => 0 := funext fun a => by fin_cases a <;> rfl

/-- The index maps over the five hundred grid points: both operands and the result move with the point along
    the rows. -/
theorem idx : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- The body's value at (p, q): the block's entry times the weight of row p. -/
theorem pay (x0 : FVec Ideal S13000x2 .f32) (x1 : FVec Ideal S13000x1 .f32) (p : Fin 13000) (q : Fin 2) :
    k4_pay1 x0 x1 (ix2 p q) = x0 (ix2 p q) * x1 (ix2 p (0 : Fin 1)) := by
  unfold k4_pay1
  rw [shapeCast_self, shapeCast_self]
  show mulf x0 (broadcastTo S13000x2 x1 broadcasts_S13000x1_S13000x2) (ix2 p q) = _
  rw [mulf_apply, Cert.LibKeepdims.broadcastTo_a1_ab_apply]

/-- What point t writes back is block t of the rows scaled by their weights. -/
theorem flushed_eq (c : Dev nD) (t : Fin cfg4.N) :
    (dat4 V c).flushed 2 t = ((cfg4.win 2).blk t).view.read (Elt Ideal)
      (Cert.Sage.scaleRows (n := 6500000) (c := 2) (V c main_v67) (V c main_v68)) := by
  show (cfg4.win 2).cut (grid4.coords t) ((dat4 V c).after 2 t) = _
  rw [after4_2]
  unfold out4_2
  rw [View.canon_unit_zero hz]
  simp only [View.ld_unit_zero (S := S13000x2) hz, View.ld_unit_zero (S := S13000x1) hz]
  obtain ⟨e0, e1, e2, e3, e4, e5⟩ := idx t
  refine funext fun (j : S13000x2.Idx) => ?_
  obtain ⟨p, q, rfl⟩ : ∃ (p : Fin 13000) (q : Fin 2), j = ix2 p q := ⟨j 0, j 1, eq_ix2 j⟩
  have hv : V c main_v67 (((cfg4.win 2).blk t).view.emb (ix2 p q)) = iblk4 V c 0 t (ix2 p q) := by
    show V c main_v67 (((cfg4.win 2).blk t).view.emb (ix2 p q)) = V c main_v67 (((cfg4.win 0).blk t).view.emb (ix2 p q))
    refine congrArg (V c main_v67) (funext fun a => Fin.ext ?_)
    match a with
    | ⟨0, _⟩ => show win4_2.index t (0 : Fin 2) * 13000 + 1 * p.val = win4_0.index t (0 : Fin 2) * 13000 + 1 * p.val; omega
    | ⟨1, _⟩ => show win4_2.index t (1 : Fin 2) * 2 + 1 * q.val = win4_0.index t (1 : Fin 2) * 2 + 1 * q.val; omega
  have hw : V c main_v68 (ix2 (Cert.Sage.rowOf (((cfg4.win 2).blk t).view.emb (ix2 p q))) (0 : Fin 1))
      = iblk4 V c 1 t (ix2 (Cert.Sage.rowOf (ix2 p q : S13000x2.Idx)) (0 : Fin 1)) := by
    show V c main_v68 (ix2 (Cert.Sage.rowOf (((cfg4.win 2).blk t).view.emb (ix2 p q))) (0 : Fin 1))
      = V c main_v68 (((cfg4.win 1).blk t).view.emb (ix2 (Cert.Sage.rowOf (ix2 p q : S13000x2.Idx)) (0 : Fin 1)))
    refine congrArg (V c main_v68) (funext fun a => Fin.ext ?_)
    match a with
    | ⟨0, _⟩ => show win4_2.index t (0 : Fin 2) * 13000 + 1 * p.val = win4_1.index t (0 : Fin 2) * 13000 + 1 * p.val; omega
    | ⟨1, _⟩ => show 0 = win4_1.index t (1 : Fin 2) * 1 + 1 * 0; omega
  show k4_pay1 (iblk4 V c 0 t) (iblk4 V c 1 t) (ix2 p q)
    = Cert.Sage.scaleRows (n := 6500000) (c := 2) (V c main_v67) (V c main_v68) (((cfg4.win 2).blk t).view.emb (ix2 p q))
  refine (pay _ _ p q).trans ?_
  exact (Cert.Sage.scaleRows_rows (V c main_v67) (V c main_v68) (iblk4 V c 0 t) (iblk4 V c 1 t) _ (ix2 p q) hv hw).symm

/-- An index of the array is in point t's block iff each coordinate is in the block's range on its axis. -/
theorem mem_blk (t : Fin cfg4.N) (i : S6500000x2.Idx) :
    i ∈ ((cfg4.win 2).blk t).view.set ↔ ∀ a : Fin 2, win4_2.index t a * S13000x2.size a ≤ (i a).val
      ∧ (i a).val < win4_2.index t a * S13000x2.size a + S13000x2.size a := by
  show i ∈ ((View.whole main_v69).slice (win4_2.rect t)).set ↔ _
  rw [View.set_slice_whole, Rect.mem_set_unit]
  exact Iff.rfl

/-- Row r of the array lies in the block of point r / 13000: the five hundred blocks tile the 6500000 rows. -/
theorem cover (i : S6500000x2.Idx) :
    ∃ t : Fin cfg4.N, (cfg4.win 2).flush t = true ∧ i ∈ ((cfg4.win 2).blk t).view.set := by
  have hi0 : (i 0).val < 6500000 := (i 0).isLt
  have hi1 : (i 1).val < 2 := (i 1).isLt
  have hN : cfg4.N = 500 := N_4
  obtain ⟨t, ht⟩ : ∃ t : Fin cfg4.N, t.val = (i 0).val / 13000 := ⟨⟨(i 0).val / 13000, by rw [hN]; omega⟩, rfl⟩
  obtain ⟨e0, e1, e2, e3, e4, e5⟩ := idx t
  refine ⟨t, flush4_2 t, ?_⟩
  rw [mem_blk]
  intro a
  match a with
  | ⟨0, _⟩ =>
    show win4_2.index t (0 : Fin 2) * 13000 ≤ (i 0).val ∧ (i 0).val < win4_2.index t (0 : Fin 2) * 13000 + 13000
    omega
  | ⟨1, _⟩ =>
    show win4_2.index t (1 : Fin 2) * 2 ≤ (i 1).val ∧ (i 1).val < win4_2.index t (1 : Fin 2) * 2 + 2
    omega

/-- The array the region leaves: every row of the row operand scaled by its weight. -/
theorem final (c : Dev nD) : (dat4 V c).arrAt 2 cfg4.N
    = Cert.Sage.scaleRows (n := 6500000) (c := 2) (V c main_v67) (V c main_v68) :=
  (dat4 V c).arrAt_eq_of_cover 2 _ (fun t _ => flushed_eq V c t) cover

end Cert.KernelIdeal.Region4

end
-- ==== Proof.Region5.lean ====
/-
  Region 5: one row vector added to every row, ten blocks of 10000 rows each.
-/
import proofs.«155850_j43215960932691_2_alg».proof.Proof.Gen.KernelIdeal.Frame
import proofs.«155850_j43215960932691_2_alg».proof.Proof.LibGraphRows
import Idealize.ShloMosaic.Lib.Pipeline.Value
import Idealize.ShloMosaic.Lib.ValueIdx
import Idealize.ShloMosaic.Lib.ValueLayout

noncomputable section

namespace Cert.KernelIdeal.Region5

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Both offsets of a whole-block access are zero. -/
theorem hz : (![0, 0] : Fin 2 → Nat) = fun _ => 0 := funext fun a => by fin_cases a <;> rfl

/-- Equal right summands give equal sums. -/
theorem add_right {a b d : Ideal .f32} (h : b = d) : a + b = a + d := congrArg (a + ·) h

/-- The index maps over the ten grid points: the row operand and the result move with the point along the
    rows, the row vector stays at block (0, 0). -/
theorem idx : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The body's value at (p, q): the block's entry plus the row vector's entry of column q. -/
theorem pay (x0 : FVec Ideal S10000x2 .f32) (x1 : FVec Ideal S1x2 .f32) (p : Fin 10000) (q : Fin 2) :
    k5_pay1 x0 x1 (ix2 p q) = x0 (ix2 p q) + x1 (ix2 (0 : Fin 1) q) := by
  unfold k5_pay1
  rw [shapeCast_self, shapeCast_self]
  show addf x0 (broadcastTo S10000x2 x1 broadcasts_S1x2_S10000x2) (ix2 p q) = _
  rw [addf_apply, broadcastTo_1b_ab_apply]

/-- What point t writes back is block t of the row vector added to every row of the row operand. -/
theorem flushed_eq (c : Dev nD) (t : Fin cfg5.N) :
    (dat5 V c).flushed 2 t = ((cfg5.win 2).blk t).view.read (Elt Ideal)
      (Cert.Sage.addRowOf (n := 100000) (c := 2) (V c main_v72) (V c main_v73)) := by
  show (cfg5.win 2).cut (grid5.coords t) ((dat5 V c).after 2 t) = _
  rw [after5_2]
  unfold out5_2
  rw [View.canon_unit_zero hz]
  simp only [View.ld_unit_zero (S := S10000x2) hz, View.ld_unit_zero (S := S1x2) hz]
  obtain ⟨e0, e1, e2, e3, e4, e5⟩ := idx t
  refine funext fun (j : S10000x2.Idx) => ?_
  obtain ⟨p, q, rfl⟩ : ∃ (p : Fin 10000) (q : Fin 2), j = ix2 p q := ⟨j 0, j 1, eq_ix2 j⟩
  have hc : ((((cfg5.win 2).blk t).view.emb (ix2 p q)) 1).val = ((ix2 p q : S10000x2.Idx) 1).val := by
    show win5_2.index t (1 : Fin 2) * 2 + 1 * q.val = q.val; omega
  have hv : V c main_v72 (((cfg5.win 2).blk t).view.emb (ix2 p q)) = iblk5 V c 0 t (ix2 p q) := by
    show V c main_v72 (((cfg5.win 2).blk t).view.emb (ix2 p q)) = V c main_v72 (((cfg5.win 0).blk t).view.emb (ix2 p q))
    refine congrArg (V c main_v72) (funext fun a => Fin.ext ?_)
    match a with
    | ⟨0, _⟩ => show win5_2.index t (0 : Fin 2) * 10000 + 1 * p.val = win5_0.index t (0 : Fin 2) * 10000 + 1 * p.val; omega
    | ⟨1, _⟩ => show win5_2.index t (1 : Fin 2) * 2 + 1 * q.val = win5_0.index t (1 : Fin 2) * 2 + 1 * q.val; omega
  have hb : iblk5 V c 1 t (ix2 (0 : Fin 1) q) = V c main_v73 (ix2 (0 : Fin 1) q) := by
    show V c main_v73 (((cfg5.win 1).blk t).view.emb (ix2 (0 : Fin 1) q)) = V c main_v73 (ix2 (0 : Fin 1) q)
    refine congrArg (V c main_v73) (funext fun a => Fin.ext ?_)
    match a with
    | ⟨0, _⟩ => show win5_1.index t (0 : Fin 2) * 1 + 1 * 0 = 0; omega
    | ⟨1, _⟩ => show win5_1.index t (1 : Fin 2) * 2 + 1 * q.val = q.val; omega
  show k5_pay1 (iblk5 V c 0 t) (iblk5 V c 1 t) (ix2 p q)
    = Cert.Sage.addRowOf (n := 100000) (c := 2) (V c main_v72) (V c main_v73) (((cfg5.win 2).blk t).view.emb (ix2 p q))
  refine (pay _ _ p q).trans ?_
  refine Eq.trans ?_ (Cert.Sage.addRowOf_rows (V c main_v72) (iblk5 V c 0 t) (V c main_v73) _ (ix2 p q) hc hv).symm
  exact add_right hb

/-- An index of the array is in point t's block iff each coordinate is in the block's range on its axis. -/
theorem mem_blk (t : Fin cfg5.N) (i : S100000x2.Idx) :
    i ∈ ((cfg5.win 2).blk t).view.set ↔ ∀ a : Fin 2, win5_2.index t a * S10000x2.size a ≤ (i a).val
      ∧ (i a).val < win5_2.index t a * S10000x2.size a + S10000x2.size a := by
  show i ∈ ((View.whole main_v74).slice (win5_2.rect t)).set ↔ _
  rw [View.set_slice_whole, Rect.mem_set_unit]
  exact Iff.rfl

/-- Row r of the array lies in the block of point r / 10000: the ten blocks tile the 100000 rows. -/
theorem cover (i : S100000x2.Idx) :
    ∃ t : Fin cfg5.N, (cfg5.win 2).flush t = true ∧ i ∈ ((cfg5.win 2).blk t).view.set := by
  have hi0 : (i 0).val < 100000 := (i 0).isLt
  have hi1 : (i 1).val < 2 := (i 1).isLt
  have hN : cfg5.N = 10 := N_5
  obtain ⟨t, ht⟩ : ∃ t : Fin cfg5.N, t.val = (i 0).val / 10000 := ⟨⟨(i 0).val / 10000, by rw [hN]; omega⟩, rfl⟩
  obtain ⟨e0, e1, e2, e3, e4, e5⟩ := idx t
  refine ⟨t, flush5_2 t, ?_⟩
  rw [mem_blk]
  intro a
  match a with
  | ⟨0, _⟩ =>
    show win5_2.index t (0 : Fin 2) * 10000 ≤ (i 0).val ∧ (i 0).val < win5_2.index t (0 : Fin 2) * 10000 + 10000
    omega
  | ⟨1, _⟩ =>
    show win5_2.index t (1 : Fin 2) * 2 ≤ (i 1).val ∧ (i 1).val < win5_2.index t (1 : Fin 2) * 2 + 2
    omega

/-- The array the region leaves: the row vector added to every row of the row operand. -/
theorem final (c : Dev nD) : (dat5 V c).arrAt 2 cfg5.N
    = Cert.Sage.addRowOf (n := 100000) (c := 2) (V c main_v72) (V c main_v73) :=
  (dat5 V c).arrAt_eq_of_cover 2 _ (fun t _ => flushed_eq V c t) cover

end Cert.KernelIdeal.Region5

end
-- ==== Proof.KernelChain.lean ====
/-
  The contents of the idealized kernel's buffers from the launch to the return.

  `W0 … W12` are the contents at the twelve segment boundaries of @main. A stretch of host operations computes its
  results from the contents it finds; a kernel region leaves in its output array the closed form of its two operand
  arrays and every other buffer as it found it. At the last boundary the result buffer holds `kernelOut` of the
  arguments as launched.
-/
import proofs.«155850_j43215960932691_2_alg».proof.Proof.KernelRun
import proofs.«155850_j43215960932691_2_alg».proof.Proof.KernelSpec
import proofs.«155850_j43215960932691_2_alg».proof.Proof.HostLead
import proofs.«155850_j43215960932691_2_alg».proof.Proof.HostMid
import proofs.«155850_j43215960932691_2_alg».proof.Proof.HostAgg
import proofs.«155850_j43215960932691_2_alg».proof.Proof.Region0
import proofs.«155850_j43215960932691_2_alg».proof.Proof.Region1
import proofs.«155850_j43215960932691_2_alg».proof.Proof.Region2
import proofs.«155850_j43215960932691_2_alg».proof.Proof.Region3
import proofs.«155850_j43215960932691_2_alg».proof.Proof.Region4
import proofs.«155850_j43215960932691_2_alg».proof.Proof.Region5
import proofs.«155850_j43215960932691_2_alg».proof.Proof.LibGraphRows

noncomputable section

namespace Cert.KernelIdeal.Chain

open Cert.KernelIdeal Cert.KernelIdeal.Gen Cert.KernelIdeal.Host Cert.Sage
open Idealize.ShloMosaic Idealize.ShloMosaic.TcCoe Idealize.SL.Sem Idealize.ShloMosaic.StableHlo

/-! ## The buffers' contents, boundary by boundary -/

variable (m : (ℓ : Loc nD τ sig) → Buf (Elt Ideal) ℓ) (ρ : Dev nD → PrngReg) (c : Dev nD)

/-! ### Region 0's entry: the sources, the destinations, the degrees; the arguments as launched -/

theorem at2_v3 : W2 m ρ c (Proc.devRef .tc main_v3) = srcOf (m ((c : Thread nD τ).loc main_arg1)) :=
  lead_src (W0 m ρ c)
theorem at2_v6 : W2 m ρ c (Proc.devRef .tc main_v6) = dstOf (m ((c : Thread nD τ).loc main_arg1)) :=
  lead_dst (W0 m ρ c)
theorem at2_v14 : W2 m ρ c (Proc.devRef .tc main_v14) = disOf (dstOf (m ((c : Thread nD τ).loc main_arg1))) :=
  lead_dis (W0 m ρ c)
theorem at2_arg0 : W2 m ρ c (Proc.devRef .tc main_arg0) = m ((c : Thread nD τ).loc main_arg0) :=
  lead_arg0 (W0 m ρ c)
theorem at2_arg2 : W2 m ρ c (Proc.devRef .tc main_arg2) = m ((c : Thread nD τ).loc main_arg2) :=
  lead_arg2 (W0 m ρ c)
theorem at2_arg3 : W2 m ρ c (Proc.devRef .tc main_arg3) = m ((c : Thread nD τ).loc main_arg3) :=
  lead_arg3 (W0 m ρ c)
theorem at2_arg4 : W2 m ρ c (Proc.devRef .tc main_arg4) = m ((c : Thread nD τ).loc main_arg4) :=
  lead_arg4 (W0 m ρ c)
theorem at2_arg5 : W2 m ρ c (Proc.devRef .tc main_arg5) = m ((c : Thread nD τ).loc main_arg5) :=
  lead_arg5 (W0 m ρ c)

/-! ### After region 0: the features times the first weights -/

theorem at3_v15 : W3 m ρ c (Proc.devRef .tc main_v15) = rowsMul (n := 100000) (k := 4) (c := 16) (m ((c : Thread nD τ).loc main_arg0)) (m ((c : Thread nD τ).loc main_arg2)) := by
  refine (W3_arr m ρ c 2).trans ((Region0.final (V2 m ρ) c).trans ?_)
  rw [show V2 m ρ c main_arg0 = _ from at2_arg0 m ρ c, show V2 m ρ c main_arg2 = _ from at2_arg2 m ρ c]
theorem at3_v3 : W3 m ρ c (Proc.devRef .tc main_v3) = srcOf (m ((c : Thread nD τ).loc main_arg1)) :=
  (W3_of_ne m ρ c main_v3 (by decide)).trans (at2_v3 m ρ c)
theorem at3_v6 : W3 m ρ c (Proc.devRef .tc main_v6) = dstOf (m ((c : Thread nD τ).loc main_arg1)) :=
  (W3_of_ne m ρ c main_v6 (by decide)).trans (at2_v6 m ρ c)
theorem at3_v14 : W3 m ρ c (Proc.devRef .tc main_v14) = disOf (dstOf (m ((c : Thread nD τ).loc main_arg1))) :=
  (W3_of_ne m ρ c main_v14 (by decide)).trans (at2_v14 m ρ c)
theorem at3_arg3 : W3 m ρ c (Proc.devRef .tc main_arg3) = m ((c : Thread nD τ).loc main_arg3) :=
  (W3_of_ne m ρ c main_arg3 (by decide)).trans (at2_arg3 m ρ c)
theorem at3_arg4 : W3 m ρ c (Proc.devRef .tc main_arg4) = m ((c : Thread nD τ).loc main_arg4) :=
  (W3_of_ne m ρ c main_arg4 (by decide)).trans (at2_arg4 m ρ c)
theorem at3_arg5 : W3 m ρ c (Proc.devRef .tc main_arg5) = m ((c : Thread nD τ).loc main_arg5) :=
  (W3_of_ne m ρ c main_arg5 (by decide)).trans (at2_arg5 m ρ c)

/-! ### Region 1's entry: the picked rows and the edge weights -/

theorem at4_v37 : W4 m ρ c (Proc.devRef .tc main_v37) = gatherRows16 (rowsMul (n := 100000) (k := 4) (c := 16) (m ((c : Thread nD τ).loc main_arg0)) (m ((c : Thread nD τ).loc main_arg2))) (srcOf (m ((c : Thread nD τ).loc main_arg1))) := by
  refine (mid1_rows (W3 m ρ c)).trans ?_
  rw [at3_v15 m ρ c, at3_v3 m ρ c]
theorem at4_v38 : W4 m ρ c (Proc.devRef .tc main_v38) = edgeCoef (m ((c : Thread nD τ).loc main_arg1)) := by
  refine (mid1_coef (W3 m ρ c)).trans ?_
  rw [at3_v14 m ρ c, at3_v3 m ρ c, at3_v6 m ρ c]
  rfl
theorem at4_v3 : W4 m ρ c (Proc.devRef .tc main_v3) = srcOf (m ((c : Thread nD τ).loc main_arg1)) :=
  (mid1_keep_v3 (W3 m ρ c)).trans (at3_v3 m ρ c)
theorem at4_v6 : W4 m ρ c (Proc.devRef .tc main_v6) = dstOf (m ((c : Thread nD τ).loc main_arg1)) :=
  (mid1_keep_v6 (W3 m ρ c)).trans (at3_v6 m ρ c)
theorem at4_v14 : W4 m ρ c (Proc.devRef .tc main_v14) = disOf (dstOf (m ((c : Thread nD τ).loc main_arg1))) :=
  (mid1_keep_v14 (W3 m ρ c)).trans (at3_v14 m ρ c)
theorem at4_arg3 : W4 m ρ c (Proc.devRef .tc main_arg3) = m ((c : Thread nD τ).loc main_arg3) :=
  (mid1_keep_arg3 (W3 m ρ c)).trans (at3_arg3 m ρ c)
theorem at4_arg4 : W4 m ρ c (Proc.devRef .tc main_arg4) = m ((c : Thread nD τ).loc main_arg4) :=
  (mid1_keep_arg4 (W3 m ρ c)).trans (at3_arg4 m ρ c)
theorem at4_arg5 : W4 m ρ c (Proc.devRef .tc main_arg5) = m ((c : Thread nD τ).loc main_arg5) :=
  (mid1_keep_arg5 (W3 m ρ c)).trans (at3_arg5 m ρ c)

/-! ### After region 1: every picked row scaled by its edge's weight -/

theorem at5_v39 : W5 m ρ c (Proc.devRef .tc main_v39) = scaleRows (n := 6500000) (c := 16) (gatherRows16 (rowsMul (n := 100000) (k := 4) (c := 16) (m ((c : Thread nD τ).loc main_arg0)) (m ((c : Thread nD τ).loc main_arg2))) (srcOf (m ((c : Thread nD τ).loc main_arg1)))) (edgeCoef (m ((c : Thread nD τ).loc main_arg1))) := by
  refine (W5_arr m ρ c 2).trans ((Region1.final (V4 m ρ) c).trans ?_)
  rw [show V4 m ρ c main_v37 = _ from at4_v37 m ρ c, show V4 m ρ c main_v38 = _ from at4_v38 m ρ c]
theorem at5_v3 : W5 m ρ c (Proc.devRef .tc main_v3) = srcOf (m ((c : Thread nD τ).loc main_arg1)) :=
  (W5_of_ne m ρ c main_v3 (by decide)).trans (at4_v3 m ρ c)
theorem at5_v6 : W5 m ρ c (Proc.devRef .tc main_v6) = dstOf (m ((c : Thread nD τ).loc main_arg1)) :=
  (W5_of_ne m ρ c main_v6 (by decide)).trans (at4_v6 m ρ c)
theorem at5_v14 : W5 m ρ c (Proc.devRef .tc main_v14) = disOf (dstOf (m ((c : Thread nD τ).loc main_arg1))) :=
  (W5_of_ne m ρ c main_v14 (by decide)).trans (at4_v14 m ρ c)
theorem at5_arg3 : W5 m ρ c (Proc.devRef .tc main_arg3) = m ((c : Thread nD τ).loc main_arg3) :=
  (W5_of_ne m ρ c main_arg3 (by decide)).trans (at4_arg3 m ρ c)
theorem at5_arg4 : W5 m ρ c (Proc.devRef .tc main_arg4) = m ((c : Thread nD τ).loc main_arg4) :=
  (W5_of_ne m ρ c main_arg4 (by decide)).trans (at4_arg4 m ρ c)
theorem at5_arg5 : W5 m ρ c (Proc.devRef .tc main_arg5) = m ((c : Thread nD τ).loc main_arg5) :=
  (W5_of_ne m ρ c main_arg5 (by decide)).trans (at4_arg5 m ρ c)

/-! ### Region 2's entry: the scaled rows added up along the destinations; the first bias as a row -/

theorem at6_v42 : W6 m ρ c (Proc.devRef .tc main_v42) = scatterRows16 (dstOf (m ((c : Thread nD τ).loc main_arg1))) (scaleRows (n := 6500000) (c := 16) (gatherRows16 (rowsMul (n := 100000) (k := 4) (c := 16) (m ((c : Thread nD τ).loc main_arg0)) (m ((c : Thread nD τ).loc main_arg2))) (srcOf (m ((c : Thread nD τ).loc main_arg1)))) (edgeCoef (m ((c : Thread nD τ).loc main_arg1)))) := by
  refine (agg1_sum (W5 m ρ c)).trans ?_
  rw [at5_v6 m ρ c, at5_v39 m ρ c]
theorem at6_v43 : W6 m ρ c (Proc.devRef .tc main_v43) = biasRow16 (m ((c : Thread nD τ).loc main_arg3)) := by
  refine (agg1_bias (W5 m ρ c)).trans ?_
  rw [at5_arg3 m ρ c]
theorem at6_v3 : W6 m ρ c (Proc.devRef .tc main_v3) = srcOf (m ((c : Thread nD τ).loc main_arg1)) :=
  (agg1_keep_v3 (W5 m ρ c)).trans (at5_v3 m ρ c)
theorem at6_v6 : W6 m ρ c (Proc.devRef .tc main_v6) = dstOf (m ((c : Thread nD τ).loc main_arg1)) :=
  (agg1_keep_v6 (W5 m ρ c)).trans (at5_v6 m ρ c)
theorem at6_v14 : W6 m ρ c (Proc.devRef .tc main_v14) = disOf (dstOf (m ((c : Thread nD τ).loc main_arg1))) :=
  (agg1_keep_v14 (W5 m ρ c)).trans (at5_v14 m ρ c)
theorem at6_arg4 : W6 m ρ c (Proc.devRef .tc main_arg4) = m ((c : Thread nD τ).loc main_arg4) :=
  (agg1_keep_arg4 (W5 m ρ c)).trans (at5_arg4 m ρ c)
theorem at6_arg5 : W6 m ρ c (Proc.devRef .tc main_arg5) = m ((c : Thread nD τ).loc main_arg5) :=
  (agg1_keep_arg5 (W5 m ρ c)).trans (at5_arg5 m ρ c)

/-! ### After region 2: the first layer -/

theorem at7_v44 : W7 m ρ c (Proc.devRef .tc main_v44) = layer1 (m ((c : Thread nD τ).loc main_arg0)) (m ((c : Thread nD τ).loc main_arg1)) (m ((c : Thread nD τ).loc main_arg2)) (m ((c : Thread nD τ).loc main_arg3)) := by
  refine (W7_arr m ρ c 2).trans ((Region2.final (V6 m ρ) c).trans ?_)
  rw [show V6 m ρ c main_v42 = _ from at6_v42 m ρ c, show V6 m ρ c main_v43 = _ from at6_v43 m ρ c]
  rfl
theorem at7_v3 : W7 m ρ c (Proc.devRef .tc main_v3) = srcOf (m ((c : Thread nD τ).loc main_arg1)) :=
  (W7_of_ne m ρ c main_v3 (by decide)).trans (at6_v3 m ρ c)
theorem at7_v6 : W7 m ρ c (Proc.devRef .tc main_v6) = dstOf (m ((c : Thread nD τ).loc main_arg1)) :=
  (W7_of_ne m ρ c main_v6 (by decide)).trans (at6_v6 m ρ c)
theorem at7_v14 : W7 m ρ c (Proc.devRef .tc main_v14) = disOf (dstOf (m ((c : Thread nD τ).loc main_arg1))) :=
  (W7_of_ne m ρ c main_v14 (by decide)).trans (at6_v14 m ρ c)
theorem at7_arg4 : W7 m ρ c (Proc.devRef .tc main_arg4) = m ((c : Thread nD τ).loc main_arg4) :=
  (W7_of_ne m ρ c main_arg4 (by decide)).trans (at6_arg4 m ρ c)
theorem at7_arg5 : W7 m ρ c (Proc.devRef .tc main_arg5) = m ((c : Thread nD τ).loc main_arg5) :=
  (W7_of_ne m ρ c main_arg5 (by decide)).trans (at6_arg5 m ρ c)

/-! ### After region 3: the first layer times the second weights -/

theorem at8_v45 : W8 m ρ c (Proc.devRef .tc main_v45) = rowsMul (n := 100000) (k := 16) (c := 2) (layer1 (m ((c : Thread nD τ).loc main_arg0)) (m ((c : Thread nD τ).loc main_arg1)) (m ((c : Thread nD τ).loc main_arg2)) (m ((c : Thread nD τ).loc main_arg3))) (m ((c : Thread nD τ).loc main_arg4)) := by
  refine (W8_arr m ρ c 2).trans ((Region3.final (V7 m ρ) c).trans ?_)
  rw [show V7 m ρ c main_v44 = _ from at7_v44 m ρ c, show V7 m ρ c main_arg4 = _ from at7_arg4 m ρ c]
theorem at8_v3 : W8 m ρ c (Proc.devRef .tc main_v3) = srcOf (m ((c : Thread nD τ).loc main_arg1)) :=
  (W8_of_ne m ρ c main_v3 (by decide)).trans (at7_v3 m ρ c)
theorem at8_v6 : W8 m ρ c (Proc.devRef .tc main_v6) = dstOf (m ((c : Thread nD τ).loc main_arg1)) :=
  (W8_of_ne m ρ c main_v6 (by decide)).trans (at7_v6 m ρ c)
theorem at8_v14 : W8 m ρ c (Proc.devRef .tc main_v14) = disOf (dstOf (m ((c : Thread nD τ).loc main_arg1))) :=
  (W8_of_ne m ρ c main_v14 (by decide)).trans (at7_v14 m ρ c)
theorem at8_arg5 : W8 m ρ c (Proc.devRef .tc main_arg5) = m ((c : Thread nD τ).loc main_arg5) :=
  (W8_of_ne m ρ c main_arg5 (by decide)).trans (at7_arg5 m ρ c)

/-! ### Region 4's entry -/

theorem at9_v67 : W9 m ρ c (Proc.devRef .tc main_v67) = gatherRows2 (rowsMul (n := 100000) (k := 16) (c := 2) (layer1 (m ((c : Thread nD τ).loc main_arg0)) (m ((c : Thread nD τ).loc main_arg1)) (m ((c : Thread nD τ).loc main_arg2)) (m ((c : Thread nD τ).loc main_arg3))) (m ((c : Thread nD τ).loc main_arg4))) (srcOf (m ((c : Thread nD τ).loc main_arg1))) := by
  refine (mid2_rows (W8 m ρ c)).trans ?_
  rw [at8_v45 m ρ c, at8_v3 m ρ c]
theorem at9_v68 : W9 m ρ c (Proc.devRef .tc main_v68) = edgeCoef (m ((c : Thread nD τ).loc main_arg1)) := by
  refine (mid2_coef (W8 m ρ c)).trans ?_
  rw [at8_v14 m ρ c, at8_v3 m ρ c, at8_v6 m ρ c]
  rfl
theorem at9_v6 : W9 m ρ c (Proc.devRef .tc main_v6) = dstOf (m ((c : Thread nD τ).loc main_arg1)) :=
  (mid2_keep_v6 (W8 m ρ c)).trans (at8_v6 m ρ c)
theorem at9_arg5 : W9 m ρ c (Proc.devRef .tc main_arg5) = m ((c : Thread nD τ).loc main_arg5) :=
  (mid2_keep_arg5 (W8 m ρ c)).trans (at8_arg5 m ρ c)

/-! ### After region 4 -/

theorem at10_v69 : W10 m ρ c (Proc.devRef .tc main_v69) = scaleRows (n := 6500000) (c := 2) (gatherRows2 (rowsMul (n := 100000) (k := 16) (c := 2) (layer1 (m ((c : Thread nD τ).loc main_arg0)) (m ((c : Thread nD τ).loc main_arg1)) (m ((c : Thread nD τ).loc main_arg2)) (m ((c : Thread nD τ).loc main_arg3))) (m ((c : Thread nD τ).loc main_arg4))) (srcOf (m ((c : Thread nD τ).loc main_arg1)))) (edgeCoef (m ((c : Thread nD τ).loc main_arg1))) := by
  refine (W10_arr m ρ c 2).trans ((Region4.final (V9 m ρ) c).trans ?_)
  rw [show V9 m ρ c main_v67 = _ from at9_v67 m ρ c, show V9 m ρ c main_v68 = _ from at9_v68 m ρ c]
theorem at10_v6 : W10 m ρ c (Proc.devRef .tc main_v6) = dstOf (m ((c : Thread nD τ).loc main_arg1)) :=
  (W10_of_ne m ρ c main_v6 (by decide)).trans (at9_v6 m ρ c)
theorem at10_arg5 : W10 m ρ c (Proc.devRef .tc main_arg5) = m ((c : Thread nD τ).loc main_arg5) :=
  (W10_of_ne m ρ c main_arg5 (by decide)).trans (at9_arg5 m ρ c)

/-! ### Region 5's entry -/

theorem at11_v72 : W11 m ρ c (Proc.devRef .tc main_v72) = scatterRows2 (dstOf (m ((c : Thread nD τ).loc main_arg1))) (scaleRows (n := 6500000) (c := 2) (gatherRows2 (rowsMul (n := 100000) (k := 16) (c := 2) (layer1 (m ((c : Thread nD τ).loc main_arg0)) (m ((c : Thread nD τ).loc main_arg1)) (m ((c : Thread nD τ).loc main_arg2)) (m ((c : Thread nD τ).loc main_arg3))) (m ((c : Thread nD τ).loc main_arg4))) (srcOf (m ((c : Thread nD τ).loc main_arg1)))) (edgeCoef (m ((c : Thread nD τ).loc main_arg1)))) := by
  refine (agg2_sum (W10 m ρ c)).trans ?_
  rw [at10_v6 m ρ c, at10_v69 m ρ c]
theorem at11_v73 : W11 m ρ c (Proc.devRef .tc main_v73) = biasRow2 (m ((c : Thread nD τ).loc main_arg5)) := by
  refine (agg2_bias (W10 m ρ c)).trans ?_
  rw [at10_arg5 m ρ c]

/-! ### The return: both layers -/

theorem at12_result : W12 m ρ c (Proc.devRef .tc main_v74)
    = kernelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (RunV.W12_result m ρ c).trans ((Region5.final (V11 m ρ) c).trans ?_)
  rw [show V11 m ρ c main_v72 = _ from at11_v72 m ρ c, show V11 m ρ c main_v73 = _ from at11_v73 m ρ c]
  rfl

end Cert.KernelIdeal.Chain

end
-- ==== Proof.LibGraphHost.lean ====
/-
  The row-wise pieces of a graph convolution against the forms a host program writes them in, at the ideal values.

    a host `dot_general` contracting the second axis of [n, k] with the first of [k, c]      is `rowsMul`;
    rows times a weight vector broadcast first to a column and then along the rows             is `scaleRows` of the
                                                                                                 vector recast as a column;
    rows plus a bias vector broadcast first to one row and then down the rows                  is `addRowOf` of the
                                                                                                 vector recast as one row;
    the same clipped below at a broadcast float zero                                           is `addRowClip`.
-/
import proofs.«155850_j43215960932691_2_alg».proof.Proof.LibGraphRows
import proofs.«155850_j43215960932691_2_alg».proof.Proof.LibKeepdims
import Idealize.ShloMosaic.Lib.Pipeline.Value
import Idealize.ShloMosaic.Lib.ValueLayout
import Idealize.ShloMosaic.PureOps.Ideal.Laws

noncomputable section

namespace Cert.Sage

open Idealize.ShloMosaic Idealize.ShloMosaic.ValueIdx
open scoped BigOperators

/-- The host's matrix product, at entry (p, q), is the row–column sum. -/
theorem dotGeneral_rows {n k c : Nat} {φ₁ φ₂ : FTy}
    (D : DotDims ⟨2, ![n, k]⟩ ⟨2, ![k, c]⟩ ⟨2, ![n, c]⟩) (hr : D.contr.rank = 1)
    (hs : D.contr.size ⟨0, by omega⟩ = k)
    (l0 : ∀ (i : (⟨2, ![n, c]⟩ : Shape).Idx) (q : D.contr.Idx), (D.lhsIdx i q 0).val = (i 0).val)
    (l1 : ∀ (i : (⟨2, ![n, c]⟩ : Shape).Idx) (q : D.contr.Idx), (D.lhsIdx i q 1).val = (q ⟨0, by omega⟩).val)
    (r0 : ∀ (i : (⟨2, ![n, c]⟩ : Shape).Idx) (q : D.contr.Idx), (D.rhsIdx i q 0).val = (q ⟨0, by omega⟩).val)
    (r1 : ∀ (i : (⟨2, ![n, c]⟩ : Shape).Idx) (q : D.contr.Idx), (D.rhsIdx i q 1).val = (i 1).val)
    (prec : Option ContractPrecision) (a : FVec Ideal ⟨2, ![n, k]⟩ φ₁) (W : FVec Ideal ⟨2, ![k, c]⟩ φ₂) :
    Host.dotGeneral (F := Ideal) D prec a W = rowsMul (n := n) (k := k) (c := c) a W := by
  funext i
  obtain ⟨p, q, rfl⟩ : ∃ (p : Fin n) (q : Fin c), i = ix2 p q := ⟨i 0, i 1, eq_ix2 i⟩
  show FloatOps.dotGeneral D prec .single a W (ix2 p q) = _
  rw [Ideal.dotGeneral_apply, ← Equiv.sum_comp (contrEquiv1 D k hr hs).symm]
  unfold rowsMul
  refine Finset.sum_congr rfl fun j _ => ?_
  have hk := contrEquiv1_symm_val D k hr hs j
  have el : D.lhsIdx (ix2 p q) ((contrEquiv1 D k hr hs).symm j) = ix2 p j := funext fun ax => Fin.ext (by
    match ax with
    | ⟨0, _⟩ => exact l0 _ _
    | ⟨1, _⟩ => exact (l1 _ _).trans hk)
  have er : D.rhsIdx (ix2 p q) ((contrEquiv1 D k hr hs).symm j) = ix2 j q := funext fun ax => Fin.ext (by
    match ax with
    | ⟨0, _⟩ => exact (r0 _ _).trans hk
    | ⟨1, _⟩ => exact r1 _ _)
  rw [el, er]
  rfl

/-- A vector broadcast to a column and then along the rows reads, at (e, f), the vector at e. -/
theorem bcast_col_rows_apply {n c : Nat} {α : Type} (v : (⟨1, ![n]⟩ : Shape).Idx → α)
    (h1 : (⟨1, ![n]⟩ : Shape).BroadcastsInDim ⟨2, ![n, 1]⟩ (![0] : Fin 1 → Fin 2))
    (h2 : (⟨2, ![n, 1]⟩ : Shape).BroadcastsInDim ⟨2, ![n, c]⟩ (![0, 1] : Fin 2 → Fin 2)) (e : Fin n) (f : Fin c) :
    broadcastInDim ⟨2, ![n, c]⟩ ![0, 1] h2 (broadcastInDim ⟨2, ![n, 1]⟩ ![0] h1 v) (ix2 e f) = v (ix1 e) := by
  refine (broadcastInDim_apply _ h2 _ (ix2 e f) (ix2 e (0 : Fin 1)) fun ax => ?_).trans
    (broadcastInDim_apply _ h1 v (ix2 e (0 : Fin 1)) (ix1 e) fun ax => ?_)
  · match ax with
    | ⟨0, _⟩ =>
      show e.val = if n = 1 then 0 else e.val
      split
      · have := e.isLt; omega
      · rfl
    | ⟨1, _⟩ => rfl
  · match ax with
    | ⟨0, _⟩ =>
      show e.val = if n = 1 then 0 else e.val
      split
      · have := e.isLt; omega
      · rfl

/-- A vector broadcast to one row and then down the rows reads, at (r, q), the vector at q. -/
theorem bcast_row_rows_apply {n c : Nat} {α : Type} (b : (⟨1, ![c]⟩ : Shape).Idx → α)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2)) (r : Fin n) (q : Fin c) :
    broadcastInDim ⟨2, ![n, c]⟩ ![0, 1] h2 (broadcastInDim ⟨2, ![1, c]⟩ ![1] h1 b) (ix2 r q) = b (ix1 q) := by
  refine (broadcastInDim_apply _ h2 _ (ix2 r q) (ix2 (0 : Fin 1) q) fun ax => ?_).trans
    (broadcastInDim_apply _ h1 b (ix2 (0 : Fin 1) q) (ix1 q) fun ax => ?_)
  · match ax with
    | ⟨0, _⟩ => rfl
    | ⟨1, _⟩ =>
      show q.val = if c = 1 then 0 else q.val
      split
      · have := q.isLt; omega
      · rfl
  · match ax with
    | ⟨0, _⟩ =>
      show q.val = if c = 1 then 0 else q.val
      split
      · have := q.isLt; omega
      · rfl

/-- Rows times the doubly broadcast weight vector: `scaleRows` of the vector recast as a column. -/
theorem scaleRows_col {n c : Nat} (H : FVec Ideal ⟨2, ![n, c]⟩ .f32) (v : FVec Ideal ⟨1, ![n]⟩ .f32)
    (hc : (⟨1, ![n]⟩ : Shape).ShapeCasts ⟨2, ![n, 1]⟩)
    (h1 : (⟨1, ![n]⟩ : Shape).BroadcastsInDim ⟨2, ![n, 1]⟩ (![0] : Fin 1 → Fin 2))
    (h2 : (⟨2, ![n, 1]⟩ : Shape).BroadcastsInDim ⟨2, ![n, c]⟩ (![0, 1] : Fin 2 → Fin 2)) :
    scaleRows (n := n) (c := c) H (shapeCast ⟨2, ![n, 1]⟩ v hc)
      = mulf H (broadcastInDim ⟨2, ![n, c]⟩ ![0, 1] h2 (broadcastInDim ⟨2, ![n, 1]⟩ ![0] h1 v)) := by
  funext i
  obtain ⟨e, f, rfl⟩ : ∃ (e : Fin n) (f : Fin c), i = ix2 e f := ⟨i 0, i 1, eq_ix2 i⟩
  rw [mulf_apply, bcast_col_rows_apply v h1 h2 e f]
  unfold scaleRows
  have : rowOf (ix2 e f) = e := Fin.ext rfl
  rw [this, Cert.LibKeepdims.shapeCast_a_a1_apply v hc e (0 : Fin 1)]

/-- Rows plus the doubly broadcast bias vector: `addRowOf` of the vector recast as one row. -/
theorem addRowOf_row {n c : Nat} (A : FVec Ideal ⟨2, ![n, c]⟩ .f32) (b : FVec Ideal ⟨1, ![c]⟩ .f32)
    (hc : (⟨1, ![c]⟩ : Shape).ShapeCasts ⟨2, ![1, c]⟩)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2)) :
    addRowOf (n := n) (c := c) A (shapeCast ⟨2, ![1, c]⟩ b hc)
      = addf A (broadcastInDim ⟨2, ![n, c]⟩ ![0, 1] h2 (broadcastInDim ⟨2, ![1, c]⟩ ![1] h1 b)) := by
  funext i
  obtain ⟨r, q, rfl⟩ : ∃ (r : Fin n) (q : Fin c), i = ix2 r q := ⟨i 0, i 1, eq_ix2 i⟩
  rw [addf_apply, bcast_row_rows_apply b h1 h2 r q]
  unfold addRowOf
  have : colOf (ix2 r q) = q := Fin.ext rfl
  rw [this, shapeCast_a_1a_apply b hc (0 : Fin 1) q]

/-- The same clipped below at a broadcast float zero: `addRowClip`. -/
theorem addRowClip_row {n c : Nat} (A : FVec Ideal ⟨2, ![n, c]⟩ .f32) (b : FVec Ideal ⟨1, ![c]⟩ .f32)
    (hc : (⟨1, ![c]⟩ : Shape).ShapeCasts ⟨2, ![1, c]⟩)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2))
    (h0 : (⟨0, ![]⟩ : Shape).BroadcastsInDim ⟨2, ![n, c]⟩ (![] : Fin 0 → Fin 2)) :
    addRowClip (n := n) (c := c) A (shapeCast ⟨2, ![1, c]⟩ b hc)
      = maximumf (addf A (broadcastInDim ⟨2, ![n, c]⟩ ![0, 1] h2 (broadcastInDim ⟨2, ![1, c]⟩ ![1] h1 b)))
          (broadcastInDim ⟨2, ![n, c]⟩ ![] h0 (constant (F := Ideal) ⟨0, ![]⟩ .f32 0x00000000#32)) := by
  funext i
  obtain ⟨r, q, rfl⟩ : ∃ (r : Fin n) (q : Fin c), i = ix2 r q := ⟨i 0, i 1, eq_ix2 i⟩
  rw [maximumf_apply, addf_apply, bcast_row_rows_apply b h1 h2 r q,
    broadcastInDim_apply _ h0 _ (ix2 r q) ix0 (fun ax => ax.elim0)]
  unfold addRowClip
  have : colOf (ix2 r q) = q := Fin.ext rfl
  rw [this, shapeCast_a_1a_apply b hc (0 : Fin 1) q]
  rfl

end Cert.Sage

end
-- ==== Proof.Meet.lean ====
/-
  The reference's result is the kernel's function of the same arrays.

  The reference's run ends with its result at one composed term of its argument arrays: per layer a host matrix
  product, the product's rows picked along the sources, times the edge weights broadcast first to a column and then
  along the rows, added up along the destinations, plus the bias broadcast first to one row and then down the rows,
  the first layer clipped below at a broadcast zero. Each of these host forms is, at the ideal values, the row-wise
  function the kernel's regions compute (`rowsMul`, `scaleRows`, `addRowOf`, `addRowClip`) of the same operands, the
  weights and biases recast as a column and as a row; everything else — the sources, destinations and degrees, the
  gathers and the scatter-adds — is the same host operation in both programs.
-/
import proofs.«155850_j43215960932691_2_alg».proof.Proof.KernelSpec
import proofs.«155850_j43215960932691_2_alg».proof.Proof.RefRunPatched
import proofs.«155850_j43215960932691_2_alg».proof.Proof.LibGraphHost
import proofs.«155850_j43215960932691_2_alg».proof.Proof.Gen.KernelIdeal

noncomputable section

namespace Cert.Meet

open Idealize.ShloMosaic Idealize.ShloMosaic.TcCoe Idealize.SL.Sem
open Cert.KernelIdeal.Gen Cert.ReferenceIdeal.Gen

variable (m : (ℓ : Loc Cert.ReferenceIdeal.nD Cert.ReferenceIdeal.τ Cert.ReferenceIdeal.sig) → Buf (Elt Ideal) ℓ) (c : Dev Cert.ReferenceIdeal.nD)

/-- The reference's first matrix product is rows against columns. -/
theorem dot1 (a : FVec Ideal Cert.ReferenceIdeal.S100000x4 .f32) (W : FVec Ideal Cert.ReferenceIdeal.S4x16 .f32) :
    Host.dotGeneral (F := Ideal) Cert.ReferenceIdeal.dot_S100000x4_S4x16_S100000x16_1_0_0_1_n_n none a W
      = Cert.Sage.rowsMul (n := 100000) (k := 4) (c := 16) a W :=
  Cert.Sage.dotGeneral_rows (n := 100000) (k := 4) (c := 16) Cert.ReferenceIdeal.dot_S100000x4_S4x16_S100000x16_1_0_0_1_n_n
    (hr := rfl) (hs := rfl)
    (l0 := fun i q => rfl)
    (l1 := fun i q => Cert.ReferenceIdeal.dot_S100000x4_S4x16_S100000x16_1_0_0_1_n_n.lhsIdx_val_of_single (cl := (1 : Fin 2)) rfl i q)
    (r0 := fun i q => Cert.ReferenceIdeal.dot_S100000x4_S4x16_S100000x16_1_0_0_1_n_n.rhsIdx_val_of_single (cr := (0 : Fin 2)) rfl i q)
    (r1 := fun i q => rfl) none a W

/-- The reference's second matrix product is rows against columns. -/
theorem dot2 (a : FVec Ideal Cert.ReferenceIdeal.S100000x16 .f32) (W : FVec Ideal Cert.ReferenceIdeal.S16x2 .f32) :
    Host.dotGeneral (F := Ideal) Cert.ReferenceIdeal.dot_S100000x16_S16x2_S100000x2_1_0_0_1_n_n none a W
      = Cert.Sage.rowsMul (n := 100000) (k := 16) (c := 2) a W :=
  Cert.Sage.dotGeneral_rows (n := 100000) (k := 16) (c := 2) Cert.ReferenceIdeal.dot_S100000x16_S16x2_S100000x2_1_0_0_1_n_n
    (hr := rfl) (hs := rfl)
    (l0 := fun i q => rfl)
    (l1 := fun i q => Cert.ReferenceIdeal.dot_S100000x16_S16x2_S100000x2_1_0_0_1_n_n.lhsIdx_val_of_single (cl := (1 : Fin 2)) rfl i q)
    (r0 := fun i q => Cert.ReferenceIdeal.dot_S100000x16_S16x2_S100000x2_1_0_0_1_n_n.rhsIdx_val_of_single (cr := (0 : Fin 2)) rfl i q)
    (r1 := fun i q => rfl) none a W

/-- The reference's composed result term is `kernelOut` of its argument arrays. -/
theorem ref_is_kernelOut :
    Cert.ReferenceIdeal.ValueP.res_main_v79 (F := Ideal) m c
      = Cert.KernelIdeal.Chain.kernelOut (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) := by
  unfold Cert.ReferenceIdeal.ValueP.res_main_v79
  rw [dot1, dot2,
    ← Cert.Sage.scaleRows_col (n := 6500000) (c := 16) _ _ Cert.KernelIdeal.Facts₀.shapeCasts_S6500000_S6500000x1 Cert.ReferenceIdeal.Facts₀.bcast_S6500000_S6500000x1_0 Cert.ReferenceIdeal.Facts₀.bcast_S6500000x1_S6500000x16_0_1,
    ← Cert.Sage.scaleRows_col (n := 6500000) (c := 2) _ _ Cert.KernelIdeal.Facts₀.shapeCasts_S6500000_S6500000x1 Cert.ReferenceIdeal.Facts₀.bcast_S6500000_S6500000x1_0 Cert.ReferenceIdeal.Facts₀.bcast_S6500000x1_S6500000x2_0_1,
    ← Cert.Sage.addRowClip_row (n := 100000) (c := 16) _ _ Cert.KernelIdeal.Facts₀.shapeCasts_S16_S1x16 Cert.ReferenceIdeal.Facts₀.bcast_S16_S1x16_1 Cert.ReferenceIdeal.Facts₀.bcast_S1x16_S100000x16_0_1 Cert.ReferenceIdeal.Facts₀.bcast_S_S100000x16,
    ← Cert.Sage.addRowOf_row (n := 100000) (c := 2) _ _ Cert.KernelIdeal.Facts₀.shapeCasts_S2_S1x2 Cert.ReferenceIdeal.Facts₀.bcast_S2_S1x2_1 Cert.ReferenceIdeal.Facts₀.bcast_S1x2_S100000x2_0_1]
  rfl

end Cert.Meet

end
-- ==== Proof.lean ====
/-
  A two-layer degree-normalised graph convolution on 100000 nodes and 6400000 edges: the kernel against its
  jnp reference, at the ideal values.

  Both programs append a self-loop to every node, count the in-degrees and take their inverse square roots dis
  (zero where the count is not positive). A layer multiplies the node features by its weights, picks the product's
  row of every edge's source, scales it by dis[source]·dis[destination], adds the scaled rows up along the
  destinations and adds the bias; the first layer is then clipped below at zero and fed to the second.

  The kernel computes the matrix product, the edge-wise scaling and the bias (with the clipping) in six regions,
  ten or five hundred row blocks each, and everything indexed by the edge list with the same host operations as the
  reference. On the extended reals a block of rows of each of these three operations is the same function of the
  same block of rows, so every region leaves in its output array the whole-array function of its two operand
  arrays; a rounding to a shorter float format on the way into the matrix product is the identity; the matrix
  product into a zero accumulator and the host's dot_general are the same sum over the contracted axis; and a
  weight or bias recast as a column or a row and broadcast inside the region is the reference's double broadcast.
  Read through the twelve segments of the kernel's @main, its result is one function `kernelOut` of the six
  argument arrays, and the reference's composed term is `kernelOut` of its own arguments. No law of the extended
  reals beyond these identifications is used, so the finiteness of the inputs is never opened.

  The idealization rewrote no operation of the kernel, so that claim is `True`.
-/
import proofs.«155850_j43215960932691_2_alg».proof.Defs
import proofs.«155850_j43215960932691_2_alg».proof.Proof.Gen.Kernel
import proofs.«155850_j43215960932691_2_alg».proof.Proof.Gen.Kernel.Skeleton
import proofs.«155850_j43215960932691_2_alg».proof.Proof.Gen.Kernel.Launch
import proofs.«155850_j43215960932691_2_alg».proof.Proof.Gen.Kernel.Points
import proofs.«155850_j43215960932691_2_alg».proof.Proof.Gen.Kernel.Frame
import proofs.«155850_j43215960932691_2_alg».proof.Proof.Gen.KernelIdeal
import proofs.«155850_j43215960932691_2_alg».proof.Proof.Gen.KernelIdeal.Skeleton
import proofs.«155850_j43215960932691_2_alg».proof.Proof.Gen.KernelIdeal.Launch
import proofs.«155850_j43215960932691_2_alg».proof.Proof.Gen.KernelIdeal.Points
import proofs.«155850_j43215960932691_2_alg».proof.Proof.Gen.KernelIdeal.Frame
import proofs.«155850_j43215960932691_2_alg».proof.Proof.Gen.ReferenceIdeal
import proofs.«155850_j43215960932691_2_alg».proof.Proof.Gen.Pre_finite_inputs
import proofs.«155850_j43215960932691_2_alg».proof.Proof.RefRunPatched
import proofs.«155850_j43215960932691_2_alg».proof.Proof.KernelRun
import proofs.«155850_j43215960932691_2_alg».proof.Proof.KernelChain
import proofs.«155850_j43215960932691_2_alg».proof.Proof.Meet
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_k : Cert.frame_Kernel := fun m ρ _ => Cert.Kernel.Gen.frame m ρ

/-- The idealized kernel runs and leaves its arguments as launched. -/
theorem frame_ki : Cert.frame_KernelIdeal := fun m ρ _ => Cert.KernelIdeal.Gen.frame m ρ

/-- The idealized reference runs and leaves its arguments as launched: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- No operation of the kernel was rewritten. -/
theorem preserves : Cert.preserves_Kernel_KernelIdeal := trivial

/-- From memories that agree on the six arguments both programs end with `kernelOut` of those arguments. -/
theorem algebraic : Cert.algebraic_KernelIdeal_ReferenceIdeal := by
  intro m ρ m' ρ' _ hagree
  refine ⟨fun c => Cert.KernelIdeal.Chain.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Chain.at12_result m ρ c), (h c).2⟩) (Cert.KernelIdeal.RunV.run_named m ρ)
  · refine (θ_run Cert.ReferenceIdeal.defs _ _).mono (fun _ h c => ⟨(h c).1.trans ?_, (h c).2⟩)
      (Cert.ReferenceIdeal.ValueP.run (F := Ideal) m' ρ')
    rw [Cert.Meet.ref_is_kernelOut m' c, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
